-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1x1x1024 : Shape := ⟨3, ![1, 1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1x1x1024 .f32) (main_arg5 : FVec F S1024x1024 .f32) (main_arg6 : FVec F S1x1x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1x1024 .f32 := Host.absf main_arg4
  let main_cst_6 : FVec F S_ .f32 := constant S_ .f32 0x7F800000#32
  let main_v20 : FVec F S1x1x1024 .f32 := broadcastInDim S1x1x1024 ![] bcast_S_S1x1x1024 main_cst_6
  let main_v21 : IVec S1x1x1024 1 := cmpf .olt main_v19 main_v20
  let main_c_7 : IVec S_ 1 := constantI S_ 1 1#1
  let main_v22 : IVec S_ 1 := (fun x v => Host.reduce IntOp.andi x v reducesTo_S1x1x1024_S_d0_1_2 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x1x1024 .f32 := Host.absf main_arg6
  let main_cst_10 : FVec F S_ .f32 := constant S_ .f32 0x7F800000#32
  let main_v30 : FVec F S1x1x1024 .f32 := broadcastInDim S1x1x1024 ![] bcast_S_S1x1x1024 main_cst_10
  let main_v31 : IVec S1x1x1024 1 := cmpf .olt main_v29 main_v30
  let main_c_11 : IVec S_ 1 := constantI S_ 1 1#1
  let main_v32 : IVec S_ 1 := (fun x v => Host.reduce IntOp.andi x v reducesTo_S1x1x1024_S_d0_1_2 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024x1024 .f32) (main_arg2 : FVec F S1x1x1024 .f32) (main_arg3 : FVec F S1024x1024 .f32) (main_arg4 : FVec F S1x1x1024 .f32) (main_arg5 : FVec F S1024x1024 .f32) (main_arg6 : FVec F S1x1x1024 .f32) (main_arg7 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1x1024 .f32 := Host.absf main_arg2
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024x1024 : Shape := ⟨2, ![1024, 1024]⟩
abbrev S1x1x1024 : Shape := ⟨3, ![1, 1, 1024]⟩
abbrev S_ : Shape := ⟨0, ![]⟩
abbrev S1024 : Shape := ⟨1, ![1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S2048 : Shape := ⟨1, ![2048]⟩
abbrev S2048x1 : Shape := ⟨2, ![2048, 1]⟩
abbrev S1x2048 : Shape := ⟨2, ![1, 2048]⟩
abbrev S512x2048 : Shape := ⟨2, ![512, 2048]⟩

abbrev nBuf : Space → Nat
  | .hbm => 53
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1x1x1024, .f32⟩
  | .hbm, ⟨3, _⟩ => ⟨S1024x1024, .f32⟩
  | .hbm, ⟨4, _⟩ => ⟨S1x1x1024, .f32⟩
  | .hbm, ⟨5, _⟩ => ⟨S1024x1024, .f32⟩
  | .hbm, ⟨6, _⟩ => ⟨S1x1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S2x2048x16x64, .bf16⟩
  | .hbm, ⟨37, _⟩ => ⟨S2x16x2048x64, .bf16⟩
  | .hbm, ⟨38, _⟩ => ⟨S32x2048x64, .bf16⟩
  | .hbm, ⟨39, _⟩ => ⟨S2x2048x16x64, .bf16⟩
  | .hbm, ⟨40, _⟩ => ⟨S2x16x2048x64, .bf16⟩
  | .hbm, ⟨41, _⟩ => ⟨S32x2048x64, .bf16⟩
  | .hbm, ⟨42, _⟩ => ⟨S2x2048x16x64, .bf16⟩
  | .hbm, ⟨43, _⟩ => ⟨S2x16x2048x64, .bf16⟩
  | .hbm, ⟨44, _⟩ => ⟨S32x2048x64, .bf16⟩
  | .hbm, ⟨45, _⟩ => ⟨S32x2048x64, .bf16⟩
  | .hbm, ⟨46, _⟩ => ⟨S2x16x2048x64, .bf16⟩
  | .hbm, ⟨47, _⟩ => ⟨S2x2048x16x64, .bf16⟩
  | .hbm, ⟨48, _⟩ => ⟨S4096x1024, .bf16⟩
  | .hbm, ⟨49, _⟩ => ⟨S1024x1024, .f32⟩
  | .hbm, ⟨50, _⟩ => ⟨S1024x1024, .bf16⟩
  | .hbm, ⟨51, _⟩ => ⟨S4096x1024, .f32⟩
  | .hbm, ⟨52, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512x64, .bf16⟩
  | .local _ .vmem, ⟨18, _⟩ => ⟨S1x512x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x512x64, .bf16⟩
  | .local _ .vmem, ⟨24, _⟩ => ⟨S1x512x64, .bf16⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S1024x1024_S1024x1024_1_0 : S1024x1024.Transposes [1, 0] S1024x1024
  bitsLt_bf16_f32 : FTy.bits .bf16 < FTy.bits .f32
  reducesTo_S1024x1024_S1024_d1 : S1024x1024.ReducesTo [1] S1024
  h_S_ : 0 < S_.numel
  shapeCasts_S1024_S1x1024 : S1024.ShapeCasts S1x1024
  shapeCasts_S1x1x1024_S1x1024 : S1x1x1024.ShapeCasts S1x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x64_S512 : S512x64.Reduces [1] S512
  reduces_S2048x64_S2048 : S2048x64.Reduces [1] S2048
  shapeCasts_S2048_S2048x1 : S2048.ShapeCasts S2048x1
  transposes_S2048x1_p1_0_S1x2048 : S2048x1.Transposes [1, 0] S1x2048
  broadcasts_S512x1_S512x2048 : S512x1.Broadcasts S512x2048
  broadcasts_S1x2048_S512x2048 : S1x2048.Broadcasts S512x2048
  reduces_S512x2048_S512 : S512x2048.Reduces [1] S512
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S4096x1024.size a
  hwx0_10 : ∀ i : grid0.Coords, EltTy.bits .bf16 = 32 ∨ (Rect.block (s := S4096x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S4096x1024.size a
  hwx0_11 : ∀ i : grid0.Coords, EltTy.bits .bf16 = 32 ∨ (Rect.block (s := S4096x1024) S512x1024.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S4096x1024.size a
  hwx0_12 : ∀ i : grid0.Coords, EltTy.bits .bf16 = 32 ∨ (Rect.block (s := S4096x1024) S512x1024.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v21) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_1) S512x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_2) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v25) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1x1x1024 : Shape := ⟨3, ![1, 1, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S2x16x2048x2048 : Shape := ⟨4, ![2, 16, 2048, 2048]⟩

abbrev nBuf : Space → Nat
  | .hbm => 157
  | .vmem => 0
  | .smem => 0
  | _ => 0

abbrev hbmTy0_0 (i : Nat) : BufTy := match i % 128 with
  | 0 => ⟨S2x2048x1024, .f32⟩
  | 1 => ⟨S1024x1024, .f32⟩
  | 2 => ⟨S1x1x1024, .f32⟩
  | 3 => ⟨S1024x1024, .f32⟩
  | 4 => ⟨S1x1x1024, .f32⟩
  | 5 => ⟨S1024x1024, .f32⟩
  | 6 => ⟨S1x1x1024, .f32⟩
  | 7 => ⟨S1024x1024, .f32⟩
  | 8 => ⟨S2x2048x1024, .f32⟩
  | 9 => ⟨S1024x1024, .f32⟩
  | 10 => ⟨S2x2048x1024, .f32⟩
  | 11 => ⟨S_, .f32⟩
  | 12 => ⟨S2x2048, .f32⟩
  | 13 => ⟨S2x2048x1, .f32⟩
  | 14 => ⟨S1024x1024, .f32⟩
  | 15 => ⟨S_, .f32⟩
  | 16 => ⟨S1024, .f32⟩
  | 17 => ⟨S2x2048x1024, .f32⟩
  | 18 => ⟨S1x1x1024, .f32⟩
  | 19 => ⟨S2x2048x1024, .f32⟩
  | 20 => ⟨S2x2048x1024, .f32⟩
  | 21 => ⟨S2x2048x1024, .f32⟩
  | 22 => ⟨S_, .f32⟩
  | 23 => ⟨S2x2048x1024, .f32⟩
  | 24 => ⟨S2x2048x1024, .f32⟩
  | 25 => ⟨S2x2048x1024, .f32⟩
  | 26 => ⟨S_, .f32⟩
  | 27 => ⟨S_, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x2048x1024, .f32⟩
  | 35 => ⟨S2x2048x1024, .f32⟩
  | 36 => ⟨S_, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S2x2048x16x64, .f32⟩
  | 43 => ⟨S2x16x2048x64, .f32⟩
  | 44 => ⟨S2x2048x1024, .f32⟩
  | 45 => ⟨S1024x1024, .f32⟩
  | 46 => ⟨S2x2048x1024, .f32⟩
  | 47 => ⟨S_, .f32⟩
  | 48 => ⟨S2x2048, .f32⟩
  | 49 => ⟨S2x2048x1, .f32⟩
  | 50 => ⟨S1024x1024, .f32⟩
  | 51 => ⟨S_, .f32⟩
  | 52 => ⟨S1024, .f32⟩
  | 53 => ⟨S2x2048x1024, .f32⟩
  | 54 => ⟨S1x1x1024, .f32⟩
  | 55 => ⟨S2x2048x1024, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S2x2048x1024, .f32⟩
  | 62 => ⟨S_, .f32⟩
  | 63 => ⟨S_, .f32⟩
  | 64 => ⟨S2x2048x1024, .f32⟩
  | 65 => ⟨S2x2048x1024, .f32⟩
  | 66 => ⟨S_, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S_, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x16x64, .f32⟩
  | 79 => ⟨S2x16x2048x64, .f32⟩
  | 80 => ⟨S2x2048x1024, .f32⟩
  | 81 => ⟨S1024x1024, .f32⟩
  | 82 => ⟨S2x2048x1024, .f32⟩
  | 83 => ⟨S_, .f32⟩
  | 84 => ⟨S2x2048, .f32⟩
  | 85 => ⟨S2x2048x1, .f32⟩
  | 86 => ⟨S1024x1024, .f32⟩
  | 87 => ⟨S_, .f32⟩
  | 88 => ⟨S1024, .f32⟩
  | 89 => ⟨S2x2048x1024, .f32⟩
  | 90 => ⟨S1x1x1024, .f32⟩
  | 91 => ⟨S2x2048x1024, .f32⟩
  | 92 => ⟨S2x2048x1024, .f32⟩
  | 93 => ⟨S2x2048x1024, .f32⟩
  | 94 => ⟨S_, .f32⟩
  | 95 => ⟨S2x2048x1024, .f32⟩
  | 96 => ⟨S2x2048x1024, .f32⟩
  | 97 => ⟨S2x2048x1024, .f32⟩
  | 98 => ⟨S_, .f32⟩
  | 99 => ⟨S_, .f32⟩
  | 100 => ⟨S2x2048x1024, .f32⟩
  | 101 => ⟨S2x2048x1024, .f32⟩
  | 102 => ⟨S_, .f32⟩
  | 103 => ⟨S2x2048x1024, .f32⟩
  | 104 => ⟨S2x2048x1024, .f32⟩
  | 105 => ⟨S_, .f32⟩
  | 106 => ⟨S2x2048x1024, .f32⟩
  | 107 => ⟨S2x2048x1024, .f32⟩
  | 108 => ⟨S_, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x16x64, .f32⟩
  | 114 => ⟨S2x16x2048x64, .f32⟩
  | 115 => ⟨S2x16x2048x64, .f32⟩
  | 116 => ⟨S_, .f32⟩
  | 117 => ⟨S2x16x2048, .f32⟩
  | 118 => ⟨S2x16x2048x1, .f32⟩
  | 119 => ⟨S2x16x2048x64, .f32⟩
  | 120 => ⟨S_, .f32⟩
  | 121 => ⟨S2x16x2048, .f32⟩
  | 122 => ⟨S2x16x1x2048, .f32⟩
  | 123 => ⟨S2x16x2048x2048, .f32⟩
  | 124 => ⟨S2x16x2048x2048, .f32⟩
  | 125 => ⟨S2x16x2048x2048, .f32⟩
  | 126 => ⟨S2x16x2048x2048, .f32⟩
  | 127 => ⟨S_, .f32⟩
  | _ => ⟨S2x2048x1024, .f32⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S_, .f32⟩
  | 4 => ⟨S_, .f32⟩
  | 5 => ⟨S2x16x2048x2048, .f32⟩
  | 6 => ⟨S2x16x2048x2048, .f32⟩
  | 7 => ⟨S2x16x2048x2048, .f32⟩
  | 8 => ⟨S_, .f32⟩
  | 9 => ⟨S2x16x2048x2048, .f32⟩
  | 10 => ⟨S2x16x2048x2048, .f32⟩
  | 11 => ⟨S_, .f32⟩
  | 12 => ⟨S2x16x2048, .f32⟩
  | 13 => ⟨S_, .f32⟩
  | 14 => ⟨S2x16x2048, .f32⟩
  | 15 => ⟨S2x16x2048, .f32⟩
  | 16 => ⟨S2x16x2048x1, .f32⟩
  | 17 => ⟨S2x16x2048x2048, .f32⟩
  | 18 => ⟨S2x16x2048x2048, .f32⟩
  | 19 => ⟨S2x16x2048x2048, .f32⟩
  | 20 => ⟨S_, .f32⟩
  | 21 => ⟨S2x16x2048, .f32⟩
  | 22 => ⟨S2x16x2048x1, .f32⟩
  | 23 => ⟨S2x16x2048x2048, .f32⟩
  | 24 => ⟨S2x16x2048x2048, .f32⟩
  | 25 => ⟨S2x16x2048x64, .f32⟩
  | 26 => ⟨S2x2048x16x64, .f32⟩
  | 27 => ⟨S2x2048x1024, .f32⟩
  | 28 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_call2_v0 : Ref sig .tc := ⟨.hbm, 99, rfl⟩
abbrev main_call2_v1 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_23 : Ref sig .tc := ⟨.hbm, 131, rfl⟩
abbrev main_call3_v0 : Ref sig .tc := ⟨.hbm, 132, rfl⟩
abbrev main_call3_v1 : Ref sig .tc := ⟨.hbm, 133, rfl⟩
abbrev main_v93 : Ref sig .tc := ⟨.hbm, 134, rfl⟩
abbrev main_v94 : Ref sig .tc := ⟨.hbm, 135, rfl⟩
abbrev main_cst_24 : Ref sig .tc := ⟨.hbm, 136, rfl⟩
abbrev main_v95 : Ref sig .tc := ⟨.hbm, 137, rfl⟩
abbrev main_v96 : Ref sig .tc := ⟨.hbm, 138, rfl⟩
abbrev main_cst_25 : Ref sig .tc := ⟨.hbm, 139, rfl⟩
abbrev main_v97 : Ref sig .tc := ⟨.hbm, 140, rfl⟩
abbrev main_cst_26 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_27 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  reducesTo_S1024x1024_S1024_d1 : S1024x1024.ReducesTo [1] S1024
  bcast_S1024_S1x1x1024_2 : S1024.BroadcastsInDim S1x1x1024 (![2] : Fin 1 → Fin S1x1x1024.rank)
  bcast_S2x2048x1_S2x2048x1024_0_1_2 : S2x2048x1.BroadcastsInDim S2x2048x1024 (![0, 1, 2] : Fin 3 → Fin S2x2048x1024.rank)
  bcast_S1x1x1024_S2x2048x1024_0_1_2 : S1x1x1024.BroadcastsInDim S2x2048x1024 (![0, 1, 2] : Fin 3 → Fin S2x2048x1024.rank)
  bcast_S_S2x2048x1024 : S_.BroadcastsInDim S2x2048x1024 (![] : Fin 0 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  reducesTo_S2x16x2048x64_S2x16x2048_d3 : S2x16x2048x64.ReducesTo [3] S2x16x2048
  bcast_S2x16x2048_S2x16x2048x1_0_1_2 : S2x16x2048.BroadcastsInDim S2x16x2048x1 (![0, 1, 2] : Fin 3 → Fin S2x16x2048x1.rank)
  bcast_S2x16x2048_S2x16x1x2048_0_1_3 : S2x16x2048.BroadcastsInDim S2x16x1x2048 (![0, 1, 3] : Fin 3 → Fin S2x16x1x2048.rank)
  bcast_S2x16x2048x1_S2x16x2048x2048_0_1_2_3 : S2x16x2048x1.BroadcastsInDim S2x16x2048x2048 (![0, 1, 2, 3] : Fin 4 → Fin S2x16x2048x2048.rank)
  bcast_S2x16x1x2048_S2x16x2048x2048_0_1_2_3 : S2x16x1x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics both programs compute, stated once over plain coordinate functions on the extended reals.

  A "proxy" linear layer sends a row x and a weight row w, both passed through tanh, to
      ((1 - max 0 (|x|² + |w|² - 2⟨x, w⟩) / 1024) - 1/2) · g,
  the squared distance of the two activated rows clipped at zero, rescaled and gated.  Three such layers give
  q = tanh(..), k = tanh(..) and v.  Each of the 4096 = 2·2048 rows is cut into 16 heads of 64 columns; within a
  head (batch b, head h) every query row t attends to all 2048 key rows s with weights
      softmax_s ( - max 0 (|q_t|² + |k_s|² - 2⟨q_t, k_s⟩) / 80 ),
  the softmax taken with the row maximum subtracted.  The heads are laid side by side again and multiplied
  by the rows of the output weights.  Nothing here depends on how either program tiles or lays out its arrays.
-/
import Idealize.ShloMosaic.Lib.ValueIdx
import Idealize.ShloMosaic.PureOps.Ideal.Laws

noncomputable section

open scoped BigOperators

namespace Cert.ProxyAttn

open Idealize.ShloMosaic

/-! ## The float literals of the two programs, as their words read at the ideal instance (never evaluated) -/

abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32
abbrev c1024 : EReal := Ideal.ofBits .f32 0x44800000#32
abbrev c80 : EReal := Ideal.ofBits .f32 0x42A00000#32
abbrev ninf : EReal := Ideal.ofBits .f32 0xFF800000#32

/-! ## One proxy layer -/

/-- The clipped squared distance of two rows from their squared norms `a`, `b` and their inner product `d`. -/
def dist (a b d : EReal) : EReal := max zero (a + b - two * d)

/-- The layer's entry from the two squared norms, the inner product and the gain. -/
def gate (a b d g : EReal) : EReal := (one - Ideal.div (dist a b d) c1024 - half) * g

/-- The layer against weights already activated and transposed (`wT d o`), with their squared row norms `wsq o` given. -/
def projK (x : Fin 4096 → Fin 1024 → EReal) (wT : Fin 1024 → Fin 1024 → EReal) (wsq g : Fin 1024 → EReal)
    (r : Fin 4096) (o : Fin 1024) : EReal :=
  gate (∑ d : Fin 1024, Ideal.tanh (x r d) * Ideal.tanh (x r d)) (wsq o) (∑ d : Fin 1024, Ideal.tanh (x r d) * wT d o) (g o)

/-- The layer from the raw weights `w o d`. -/
def proj (x : Fin 4096 → Fin 1024 → EReal) (w : Fin 1024 → Fin 1024 → EReal) (g : Fin 1024 → EReal)
    (r : Fin 4096) (o : Fin 1024) : EReal :=
  projK x (fun d o => Ideal.tanh (w o d)) (fun o => ∑ d : Fin 1024, Ideal.tanh (w o d) * Ideal.tanh (w o d)) g r o

/-! ## Heads -/

/-- Row `b·2048 + t` of the flat [4096, 1024] layout, for head index `bh = b·16 + h`. -/
def headRow (bh : Fin 32) (t : Fin 2048) : Fin 4096 := ⟨(bh.val / 16) * 2048 + t.val, by omega⟩
/-- Column `h·64 + d` of the flat layout. -/
def headCol (bh : Fin 32) (d : Fin 64) : Fin 1024 := ⟨(bh.val % 16) * 64 + d.val, by omega⟩

/-- A flat [4096, 1024] array cut into 32 heads of [2048, 64]. -/
def heads (M : Fin 4096 → Fin 1024 → EReal) (bh : Fin 32) (t : Fin 2048) (d : Fin 64) : EReal :=
  M (headRow bh t) (headCol bh d)

/-- The 32 heads laid side by side again as a flat [4096, 1024] array. -/
def unheads (A : Fin 32 → Fin 2048 → Fin 64 → EReal) (r : Fin 4096) (c : Fin 1024) : EReal :=
  A ⟨(r.val / 2048) * 16 + c.val / 64, by omega⟩ ⟨r.val % 2048, by omega⟩ ⟨c.val % 64, by omega⟩

/-! ## Attention within one head -/

/-- The logit of query row `t` against key row `s`. -/
def logit (q k : Fin 2048 → Fin 64 → EReal) (t s : Fin 2048) : EReal :=
  Ideal.div (-(dist (∑ e : Fin 64, q t e * q t e) (∑ e : Fin 64, k s e * k s e) (∑ e : Fin 64, q t e * k s e))) c80

/-- A row's maximum, folded from minus infinity (and once more joined with it, as both programs do). -/
def rowMax (l : Fin 2048 → EReal) : EReal := max ninf ((Finset.univ : Finset (Fin 2048)).fold max ninf l)

/-- The shifted exponential of one entry of a row. -/
def ex (l : Fin 2048 → EReal) (s : Fin 2048) : EReal := Ideal.exp (l s - rowMax l)

/-- Softmax along a row of 2048 logits. -/
def soft (l : Fin 2048 → EReal) (s : Fin 2048) : EReal := Ideal.div (ex l s) (∑ s' : Fin 2048, ex l s')

/-- One head: every query row's weighted sum of the value rows. -/
def attend (q k v : Fin 2048 → Fin 64 → EReal) (t : Fin 2048) (d : Fin 64) : EReal :=
  ∑ s : Fin 2048, soft (logit q k t) s * v s d

/-- All 32 heads. -/
def attn (q k v : Fin 32 → Fin 2048 → Fin 64 → EReal) (bh : Fin 32) (t : Fin 2048) (d : Fin 64) : EReal :=
  attend (q bh) (k bh) (v bh) t d

/-! ## The output projection, and the whole -/

/-- Rows times transposed output weights `woT c o`. -/
def outK (A : Fin 4096 → Fin 1024 → EReal) (woT : Fin 1024 → Fin 1024 → EReal) (r : Fin 4096) (o : Fin 1024) : EReal :=
  ∑ c : Fin 1024, A r c * woT c o

/-- The whole function of the eight arguments, on the flat [4096, 1024] layout. -/
def whole (x : Fin 4096 → Fin 1024 → EReal) (wq : Fin 1024 → Fin 1024 → EReal) (gq : Fin 1024 → EReal)
    (wk : Fin 1024 → Fin 1024 → EReal) (gk : Fin 1024 → EReal) (wv : Fin 1024 → Fin 1024 → EReal) (gv : Fin 1024 → EReal)
    (wo : Fin 1024 → Fin 1024 → EReal) (r : Fin 4096) (o : Fin 1024) : EReal :=
  outK (unheads (attn (heads fun r o => Ideal.tanh (proj x wq gq r o)) (heads fun r o => Ideal.tanh (proj x wk gk r o))
    (heads (proj x wv gv)))) (fun c o => wo o c) r o

/-! ## The arguments as the programs hold them, and the result in the claim's layout [2, 2048, 1024] -/

open Idealize.ShloMosaic.ValueIdx in
/-- The activations [2, 2048, 1024] read as 4096 flat rows. -/
def xflat (x : (⟨3, ![2, 2048, 1024]⟩ : Shape).Idx → EReal) (r : Fin 4096) (d : Fin 1024) : EReal :=
  x (ix3 (⟨r.val / 2048, by omega⟩ : Fin 2) (⟨r.val % 2048, Nat.mod_lt _ (by norm_num)⟩ : Fin 2048) d)

open Idealize.ShloMosaic.ValueIdx in
/-- A weight matrix [1024, 1024] by its two coordinates. -/
def mat (w : (⟨2, ![1024, 1024]⟩ : Shape).Idx → EReal) (o d : Fin 1024) : EReal := w (ix2 o d)

open Idealize.ShloMosaic.ValueIdx in
/-- A gain [1, 1, 1024] by its column. -/
def gain (g : (⟨3, ![1, 1, 1024]⟩ : Shape).Idx → EReal) (o : Fin 1024) : EReal := g (ix3 (0 : Fin 1) (0 : Fin 1) o)

/-- The result array: entry (b, t, o) is the whole function at flat row b·2048 + t. -/
def result (x : (⟨3, ![2, 2048, 1024]⟩ : Shape).Idx → EReal) (wq : (⟨2, ![1024, 1024]⟩ : Shape).Idx → EReal)
    (gq : (⟨3, ![1, 1, 1024]⟩ : Shape).Idx → EReal) (wk : (⟨2, ![1024, 1024]⟩ : Shape).Idx → EReal)
    (gk : (⟨3, ![1, 1, 1024]⟩ : Shape).Idx → EReal) (wv : (⟨2, ![1024, 1024]⟩ : Shape).Idx → EReal)
    (gv : (⟨3, ![1, 1, 1024]⟩ : Shape).Idx → EReal) (wo : (⟨2, ![1024, 1024]⟩ : Shape).Idx → EReal) :
    (⟨3, ![2, 2048, 1024]⟩ : Shape).Idx → EReal := fun i =>
  whole (xflat x) (mat wq) (gain gq) (mat wk) (gain gk) (mat wv) (gain gv) (mat wo)
    ⟨(i 0).val * 2048 + (i 1).val, by have h0 : (i 0).val < 2 := (i 0).isLt; have h1 : (i 1).val < 2048 := (i 1).isLt; omega⟩ (i 2)

end Cert.ProxyAttn

end
-- ==== Proof.Heads.lean ====
/-
  How the flat [4096, 1024] layout and the per-head [32, 2048, 64] layout are carried into each other by the reshapes and
  the transposition both programs use, read at an index: row b·2048 + t, column h·64 + d of the flat array is entry
  (b·16 + h, t, d) of the heads.  Also the flat reading of the [2, 2048, 1024] activations and of the result.  Pure index
  arithmetic: a reshape keeps the row-major position, the transposition swaps the two middle coordinates.
-/
import Idealize.ShloMosaic.Lib.ValueLayout
import Idealize.ShloMosaic.Lib.Pipeline.Value
import proofs.«109146_j78245714199328_1_alg».proof.Proof.Spec

noncomputable section

namespace Cert.ProxyAttn.Layout

open Idealize.ShloMosaic Idealize.ShloMosaic.ValueIdx Cert.ProxyAttn

variable {α : Type}

/-- Flat rows cut into heads: [4096,1024] → [2,2048,16,64] → (swap the middle axes) → [2,16,2048,64] → [32,2048,64]. -/
theorem splitHeads_apply (x : (⟨2, ![4096, 1024]⟩ : Shape).Idx → α)
    (h1 : (⟨2, ![4096, 1024]⟩ : Shape).ShapeCasts ⟨4, ![2, 2048, 16, 64]⟩)
    (h2 : (⟨4, ![2, 2048, 16, 64]⟩ : Shape).Transposes [0, 2, 1, 3] ⟨4, ![2, 16, 2048, 64]⟩)
    (h3 : (⟨4, ![2, 16, 2048, 64]⟩ : Shape).ShapeCasts ⟨3, ![32, 2048, 64]⟩)
    (bh : Fin 32) (t : Fin 2048) (d : Fin 64) :
    shapeCast ⟨3, ![32, 2048, 64]⟩ (transpose ⟨4, ![2, 16, 2048, 64]⟩ [0, 2, 1, 3] (shapeCast ⟨4, ![2, 2048, 16, 64]⟩ x h1) h2) h3 (ix3 bh t d)
      = x (ix2 (headRow bh t) (headCol bh d)) := by
  have hb := bh.isLt; have ht := t.isLt; have hd := d.isLt
  rw [shapeCast_apply _ h3 (ix3 bh t d)
    (ix4 (⟨bh.val / 16, by omega⟩ : Fin 2) (⟨bh.val % 16, by omega⟩ : Fin 16) t d) (by
      rw [Shape.rowMajor_val_four, Shape.rowMajor_val_three]
      show (((bh.val / 16) * 16 + bh.val % 16) * 2048 + t.val) * 64 + d.val = (bh.val * 2048 + t.val) * 64 + d.val
      omega)]
  rw [transpose_apply [0, 2, 1, 3] _ h2 _
    (ix4 (⟨bh.val / 16, by omega⟩ : Fin 2) t (⟨bh.val % 16, by omega⟩ : Fin 16) d)
    (fun a => match a with | ⟨0, _⟩ => rfl | ⟨1, _⟩ => rfl | ⟨2, _⟩ => rfl | ⟨3, _⟩ => rfl)]
  exact shapeCast_apply x h1 _ _ (by
    rw [Shape.rowMajor_val_two, Shape.rowMajor_val_four]
    show ((bh.val / 16) * 2048 + t.val) * 1024 + ((bh.val % 16) * 64 + d.val)
      = (((bh.val / 16) * 2048 + t.val) * 16 + bh.val % 16) * 64 + d.val
    omega)

/-- The heads laid side by side again: [32,2048,64] → [2,16,2048,64] → (swap the middle axes) → [2,2048,16,64] → [4096,1024]. -/
theorem mergeHeads_apply (y : (⟨3, ![32, 2048, 64]⟩ : Shape).Idx → α)
    (h1 : (⟨3, ![32, 2048, 64]⟩ : Shape).ShapeCasts ⟨4, ![2, 16, 2048, 64]⟩)
    (h2 : (⟨4, ![2, 16, 2048, 64]⟩ : Shape).Transposes [0, 2, 1, 3] ⟨4, ![2, 2048, 16, 64]⟩)
    (h3 : (⟨4, ![2, 2048, 16, 64]⟩ : Shape).ShapeCasts ⟨2, ![4096, 1024]⟩)
    (r : Fin 4096) (k : Fin 1024) :
    shapeCast ⟨2, ![4096, 1024]⟩ (transpose ⟨4, ![2, 2048, 16, 64]⟩ [0, 2, 1, 3] (shapeCast ⟨4, ![2, 16, 2048, 64]⟩ y h1) h2) h3 (ix2 r k)
      = y (ix3 (⟨(r.val / 2048) * 16 + k.val / 64, by omega⟩ : Fin 32) (⟨r.val % 2048, by omega⟩ : Fin 2048)
          (⟨k.val % 64, by omega⟩ : Fin 64)) := by
  have hr := r.isLt; have hk := k.isLt
  rw [shapeCast_apply _ h3 (ix2 r k)
    (ix4 (⟨r.val / 2048, by omega⟩ : Fin 2) (⟨r.val % 2048, by omega⟩ : Fin 2048) (⟨k.val / 64, by omega⟩ : Fin 16)
      (⟨k.val % 64, by omega⟩ : Fin 64)) (by
      rw [Shape.rowMajor_val_four, Shape.rowMajor_val_two]
      show (((r.val / 2048) * 2048 + r.val % 2048) * 16 + k.val / 64) * 64 + k.val % 64 = r.val * 1024 + k.val
      omega)]
  rw [transpose_apply [0, 2, 1, 3] _ h2 _
    (ix4 (⟨r.val / 2048, by omega⟩ : Fin 2) (⟨k.val / 64, by omega⟩ : Fin 16) (⟨r.val % 2048, by omega⟩ : Fin 2048)
      (⟨k.val % 64, by omega⟩ : Fin 64))
    (fun a => match a with | ⟨0, _⟩ => rfl | ⟨1, _⟩ => rfl | ⟨2, _⟩ => rfl | ⟨3, _⟩ => rfl)]
  exact shapeCast_apply y h1 _ _ (by
    rw [Shape.rowMajor_val_three, Shape.rowMajor_val_four]
    show (((r.val / 2048) * 16 + k.val / 64) * 2048 + r.val % 2048) * 64 + k.val % 64
      = (((r.val / 2048) * 16 + k.val / 64) * 2048 + r.val % 2048) * 64 + k.val % 64
    rfl)

/-- The activations [2,2048,1024] as 4096 flat rows. -/
theorem flatRows_apply (x : (⟨3, ![2, 2048, 1024]⟩ : Shape).Idx → α)
    (h : (⟨3, ![2, 2048, 1024]⟩ : Shape).ShapeCasts ⟨2, ![4096, 1024]⟩) (r : Fin 4096) (d : Fin 1024) :
    shapeCast ⟨2, ![4096, 1024]⟩ x h (ix2 r d)
      = x (ix3 (⟨r.val / 2048, by omega⟩ : Fin 2) (⟨r.val % 2048, Nat.mod_lt _ (by norm_num)⟩ : Fin 2048) d) := by
  have hr := r.isLt
  exact shapeCast_apply x h _ _ (by
    rw [Shape.rowMajor_val_three, Shape.rowMajor_val_two]
    show ((r.val / 2048) * 2048 + r.val % 2048) * 1024 + d.val = r.val * 1024 + d.val
    omega)

/-- The flat result [4096,1024] as [2,2048,1024]. -/
theorem unflatRows_apply (y : (⟨2, ![4096, 1024]⟩ : Shape).Idx → α)
    (h : (⟨2, ![4096, 1024]⟩ : Shape).ShapeCasts ⟨3, ![2, 2048, 1024]⟩) (i : (⟨3, ![2, 2048, 1024]⟩ : Shape).Idx) :
    shapeCast ⟨3, ![2, 2048, 1024]⟩ y h i
      = y (ix2 (⟨(i 0).val * 2048 + (i 1).val, by
          have h0 : (i 0).val < 2 := (i 0).isLt; have h1 : (i 1).val < 2048 := (i 1).isLt; omega⟩ : Fin 4096) (i 2)) := by
  exact shapeCast_apply y h _ _ (by
    rw [Shape.rowMajor_val_two, Shape.rowMajor_val_three]
    rfl)

/-- A gain [1,1,1024] as a row [1,1024]. -/
theorem gainRow_apply (g : (⟨3, ![1, 1, 1024]⟩ : Shape).Idx → α)
    (h : (⟨3, ![1, 1, 1024]⟩ : Shape).ShapeCasts ⟨2, ![1, 1024]⟩) (u : Fin 1) (o : Fin 1024) :
    shapeCast ⟨2, ![1, 1024]⟩ g h (ix2 u o) = g (ix3 (0 : Fin 1) (0 : Fin 1) o) := by
  have hu : u.val = 0 := by omega
  exact shapeCast_apply g h _ _ (by
    rw [Shape.rowMajor_val_three, Shape.rowMajor_val_two]
    show (0 * 1 + 0) * 1024 + o.val = u.val * 1024 + o.val
    rw [hu])

end Cert.ProxyAttn.Layout

end
-- ==== Proof.Entry0.lean ====
/-
  What the first kernel finds in its operands: the host operations before it only activate, transpose and sum.
  The flat activations are the [2, 2048, 1024] argument read row-major; each weight operand is tanh of the weight
  matrix transposed (the rounding to bf16 is the identity on the extended reals); each squared-norm row is the sum
  over a weight row of its squared activations (the sum's zero starting word adds nothing); each gain row is the
  [1, 1, 1024] argument read along its last axis.
-/
import proofs.«109146_j78245714199328_1_alg».proof.Proof.Gen.KernelIdeal.Frame
import proofs.«109146_j78245714199328_1_alg».proof.Proof.Heads
import Idealize.ShloMosaic.Lib.StableHlo.Run
import Idealize.ShloMosaic.PureOps.Ideal.Laws

noncomputable section

namespace Cert.KernelIdeal.Stretch

open Cert.KernelIdeal Cert.KernelIdeal.Gen Cert.ProxyAttn
open Idealize.ShloMosaic Idealize.ShloMosaic.TcCoe Idealize.ShloMosaic.StableHlo Idealize.ShloMosaic.ValueIdx Idealize.SL.Sem

/-! ## The three pure forms -/

/-- An activated weight matrix, transposed: entry (d, o) is tanh of the weight's entry (o, d). -/
theorem actT_apply (w : FVec Ideal S1024x1024 .f32) (d o : Fin 1024) :
    truncf (F := Ideal) .bf16 (transpose S1024x1024 [1, 0] (Host.tanh (F := Ideal) w) transposes_S1024x1024_S1024x1024_1_0) bitsLt_bf16_f32
      (ix2 d o) = Ideal.tanh (w (ix2 o d)) := by
  show transpose S1024x1024 [1, 0] (Host.tanh (F := Ideal) w) transposes_S1024x1024_S1024x1024_1_0 (ix2 d o) = _
  rw [transpose_ix2_apply]
  rfl

/-- The squared norms of the activated weight rows, as a [1, 1024] row: entry o is the sum over d of tanh(w o d)². -/
theorem rowNorms_apply (w : FVec Ideal S1024x1024 .f32) (u : Fin 1) (o : Fin 1024) :
    shapeCast S1x1024 (Host.reduceAdd (F := Ideal) (mulf (Host.tanh (F := Ideal) w) (Host.tanh (F := Ideal) w)) (constant (F := Ideal) S_ .f32 0x00000000#32)
      reducesTo_S1024x1024_S1024_d1 h_S_) shapeCasts_S1024_S1x1024 (ix2 u o)
      = ∑ d : Fin 1024, Ideal.tanh (w (ix2 o d)) * Ideal.tanh (w (ix2 o d)) := by
  rw [shapeCast_a_1a_apply]
  generalize hy : mulf (Host.tanh (F := Ideal) w) (Host.tanh (F := Ideal) w) = y0
  simp only [Host.reduceAdd, Ideal.hostReduceAdd_def]
  rw [Ideal.hostReduceAdd_single reducesTo_S1024x1024_S1024_d1 (by decide)]
  show Ideal.ofBits .f32 0x00000000#32 + _ = _
  rw [Ideal.ofBits_zero_f32, zero_add]
  refine Finset.sum_congr rfl fun d _ => ?_
  subst hy
  exact congrArg (fun j => Ideal.tanh (w j) * Ideal.tanh (w j))
    (funext fun a => Fin.ext (by match a with | ⟨0, _⟩ => rfl | ⟨1, _⟩ => rfl))

variable (m : (ℓ : Loc nD τ sig) → Buf (Elt Ideal) ℓ) (ρ : Dev nD → PrngReg)

/-! ## The operands of the first kernel -/

/-- The flat activations. -/
theorem entry_x (c : Dev nD) (r : Fin 4096) (d : Fin 1024) :
    V1 (F := Ideal) m ρ c main_v21 (ix2 r d) = xflat (m ((c : Thread nD τ).loc main_arg0)) r d := by
  have e : V1 (F := Ideal) m ρ c main_v21
      = shapeCast S4096x1024 (m ((c : Thread nD τ).loc main_arg0)) shapeCasts_S2x2048x1024_S4096x1024 := by
    show StableHlo.after hostOps0 (W0 m ρ c) (Proc.devRef .tc main_v21) = _
    after_results
    try rfl
  rw [e]
  exact Layout.flatRows_apply _ _ r d

/-- The q weights, activated and transposed. -/
theorem entry_wq (c : Dev nD) (d o : Fin 1024) :
    V1 (F := Ideal) m ρ c main_v4 (ix2 d o) = Ideal.tanh (mat (m ((c : Thread nD τ).loc main_arg1)) o d) := by
  have e : (V1 (F := Ideal) m ρ c main_v4 : FVec Ideal S1024x1024 .bf16)
      = truncf (F := Ideal) .bf16 (transpose S1024x1024 [1, 0] (Host.tanh (F := Ideal) (m ((c : Thread nD τ).loc main_arg1))) transposes_S1024x1024_S1024x1024_1_0) bitsLt_bf16_f32 := by
    show StableHlo.after hostOps0 (W0 m ρ c) (Proc.devRef .tc main_v4) = _
    after_results
    try rfl
  rw [e]
  exact actT_apply _ d o

/-- The k weights, activated and transposed. -/
theorem entry_wk (c : Dev nD) (d o : Fin 1024) :
    V1 (F := Ideal) m ρ c main_v6 (ix2 d o) = Ideal.tanh (mat (m ((c : Thread nD τ).loc main_arg3)) o d) := by
  have e : (V1 (F := Ideal) m ρ c main_v6 : FVec Ideal S1024x1024 .bf16)
      = truncf (F := Ideal) .bf16 (transpose S1024x1024 [1, 0] (Host.tanh (F := Ideal) (m ((c : Thread nD τ).loc main_arg3))) transposes_S1024x1024_S1024x1024_1_0) bitsLt_bf16_f32 := by
    show StableHlo.after hostOps0 (W0 m ρ c) (Proc.devRef .tc main_v6) = _
    after_results
    try rfl
  rw [e]
  exact actT_apply _ d o

/-- The v weights, activated and transposed. -/
theorem entry_wv (c : Dev nD) (d o : Fin 1024) :
    V1 (F := Ideal) m ρ c main_v8 (ix2 d o) = Ideal.tanh (mat (m ((c : Thread nD τ).loc main_arg5)) o d) := by
  have e : (V1 (F := Ideal) m ρ c main_v8 : FVec Ideal S1024x1024 .bf16)
      = truncf (F := Ideal) .bf16 (transpose S1024x1024 [1, 0] (Host.tanh (F := Ideal) (m ((c : Thread nD τ).loc main_arg5))) transposes_S1024x1024_S1024x1024_1_0) bitsLt_bf16_f32 := by
    show StableHlo.after hostOps0 (W0 m ρ c) (Proc.devRef .tc main_v8) = _
    after_results
    try rfl
  rw [e]
  exact actT_apply _ d o

/-- The squared norms of the activated q weight rows. -/
theorem entry_sq (c : Dev nD) (u : Fin 1) (o : Fin 1024) :
    V1 (F := Ideal) m ρ c main_v11 (ix2 u o)
      = ∑ d : Fin 1024, Ideal.tanh (mat (m ((c : Thread nD τ).loc main_arg1)) o d) * Ideal.tanh (mat (m ((c : Thread nD τ).loc main_arg1)) o d) := by
  have e : (V1 (F := Ideal) m ρ c main_v11 : FVec Ideal S1x1024 .f32)
      = shapeCast S1x1024 (Host.reduceAdd (F := Ideal) (mulf (Host.tanh (F := Ideal) (m ((c : Thread nD τ).loc main_arg1))) (Host.tanh (F := Ideal) (m ((c : Thread nD τ).loc main_arg1))))
          (constant (F := Ideal) S_ .f32 0x00000000#32) reducesTo_S1024x1024_S1024_d1 h_S_) shapeCasts_S1024_S1x1024 := by
    show StableHlo.after hostOps0 (W0 m ρ c) (Proc.devRef .tc main_v11) = _
    after_results
    try rfl
  rw [e]
  exact rowNorms_apply _ u o

/-- The squared norms of the activated k weight rows. -/
theorem entry_sk (c : Dev nD) (u : Fin 1) (o : Fin 1024) :
    V1 (F := Ideal) m ρ c main_v14 (ix2 u o)
      = ∑ d : Fin 1024, Ideal.tanh (mat (m ((c : Thread nD τ).loc main_arg3)) o d) * Ideal.tanh (mat (m ((c : Thread nD τ).loc main_arg3)) o d) := by
  have e : (V1 (F := Ideal) m ρ c main_v14 : FVec Ideal S1x1024 .f32)
      = shapeCast S1x1024 (Host.reduceAdd (F := Ideal) (mulf (Host.tanh (F := Ideal) (m ((c : Thread nD τ).loc main_arg3))) (Host.tanh (F := Ideal) (m ((c : Thread nD τ).loc main_arg3))))
          (constant (F := Ideal) S_ .f32 0x00000000#32) reducesTo_S1024x1024_S1024_d1 h_S_) shapeCasts_S1024_S1x1024 := by
    show StableHlo.after hostOps0 (W0 m ρ c) (Proc.devRef .tc main_v14) = _
    after_results
    try rfl
  rw [e]
  exact rowNorms_apply _ u o

/-- The squared norms of the activated v weight rows. -/
theorem entry_sv (c : Dev nD) (u : Fin 1) (o : Fin 1024) :
    V1 (F := Ideal) m ρ c main_v17 (ix2 u o)
      = ∑ d : Fin 1024, Ideal.tanh (mat (m ((c : Thread nD τ).loc main_arg5)) o d) * Ideal.tanh (mat (m ((c : Thread nD τ).loc main_arg5)) o d) := by
  have e : (V1 (F := Ideal) m ρ c main_v17 : FVec Ideal S1x1024 .f32)
      = shapeCast S1x1024 (Host.reduceAdd (F := Ideal) (mulf (Host.tanh (F := Ideal) (m ((c : Thread nD τ).loc main_arg5))) (Host.tanh (F := Ideal) (m ((c : Thread nD τ).loc main_arg5))))
          (constant (F := Ideal) S_ .f32 0x00000000#32) reducesTo_S1024x1024_S1024_d1 h_S_) shapeCasts_S1024_S1x1024 := by
    show StableHlo.after hostOps0 (W0 m ρ c) (Proc.devRef .tc main_v17) = _
    after_results
    try rfl
  rw [e]
  exact rowNorms_apply _ u o

/-- The q gains as a row. -/
theorem entry_gq (c : Dev nD) (u : Fin 1) (o : Fin 1024) :
    V1 (F := Ideal) m ρ c main_v18 (ix2 u o) = gain (m ((c : Thread nD τ).loc main_arg2)) o := by
  have e : (V1 (F := Ideal) m ρ c main_v18 : FVec Ideal S1x1024 .f32)
      = shapeCast S1x1024 (m ((c : Thread nD τ).loc main_arg2)) shapeCasts_S1x1x1024_S1x1024 := by
    show StableHlo.after hostOps0 (W0 m ρ c) (Proc.devRef .tc main_v18) = _
    after_results
    try rfl
  rw [e]
  exact Layout.gainRow_apply _ _ u o

/-- The k gains as a row. -/
theorem entry_gk (c : Dev nD) (u : Fin 1) (o : Fin 1024) :
    V1 (F := Ideal) m ρ c main_v19 (ix2 u o) = gain (m ((c : Thread nD τ).loc main_arg4)) o := by
  have e : (V1 (F := Ideal) m ρ c main_v19 : FVec Ideal S1x1024 .f32)
      = shapeCast S1x1024 (m ((c : Thread nD τ).loc main_arg4)) shapeCasts_S1x1x1024_S1x1024 := by
    show StableHlo.after hostOps0 (W0 m ρ c) (Proc.devRef .tc main_v19) = _
    after_results
    try rfl
  rw [e]
  exact Layout.gainRow_apply _ _ u o

/-- The v gains as a row. -/
theorem entry_gv (c : Dev nD) (u : Fin 1) (o : Fin 1024) :
    V1 (F := Ideal) m ρ c main_v20 (ix2 u o) = gain (m ((c : Thread nD τ).loc main_arg6)) o := by
  have e : (V1 (F := Ideal) m ρ c main_v20 : FVec Ideal S1x1024 .f32)
      = shapeCast S1x1024 (m ((c : Thread nD τ).loc main_arg6)) shapeCasts_S1x1x1024_S1x1024 := by
    show StableHlo.after hostOps0 (W0 m ρ c) (Proc.devRef .tc main_v20) = _
    after_results
    try rfl
  rw [e]
  exact Layout.gainRow_apply _ _ u o

end Cert.KernelIdeal.Stretch

end
-- ==== Proof.Entry12.lean ====
/-
  What the attention kernel and the output projection find in their operands, and where the result comes from.  Between
  the kernels the host operations only re-lay arrays: each of q, k, v as the first kernel left it, flat [4096, 1024], is
  cut into 32 heads; the attention's output is laid flat again; the output weights are transposed (their rounding to
  bf16 is the identity on the extended reals) — no host operation and no kernel writes the weight argument, so it is
  still as launched —; and the result is the output projection's array read as [2, 2048, 1024].
-/
import proofs.«109146_j78245714199328_1_alg».proof.Proof.Gen.KernelIdeal.Frame
import proofs.«109146_j78245714199328_1_alg».proof.Proof.Heads
import Idealize.ShloMosaic.Lib.StableHlo.Run

noncomputable section

namespace Cert.KernelIdeal.Stretch

open Cert.KernelIdeal Cert.KernelIdeal.Gen Cert.ProxyAttn
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-! ## The attention kernel's operands: the first kernel's three outputs cut into heads -/

/-- The q heads: entry (bh, t, d) is the first kernel's q output at flat row and column of that head. -/
theorem heads_q (c : Dev nD) (bh : Fin 32) (t : Fin 2048) (d : Fin 64) :
    V3 (F := Ideal) m ρ c main_v25 (ix3 bh t d)
      = (dat0 (F := Ideal) (V1 m ρ) c).arrAt 10 cfg0.N (ix2 (headRow bh t) (headCol bh d)) := by
  have e : (V3 (F := Ideal) m ρ c main_v25 : FVec Ideal S32x2048x64 .bf16)
      = shapeCast S32x2048x64 (transpose S2x16x2048x64 [0, 2, 1, 3]
          (shapeCast S2x2048x16x64 (W2 (F := Ideal) m ρ c (Proc.devRef .tc main_v22_0)) shapeCasts_S4096x1024_S2x2048x16x64)
          transposes_S2x2048x16x64_S2x16x2048x64_0_2_1_3) shapeCasts_S2x16x2048x64_S32x2048x64 := by
    show StableHlo.after hostOps1 (W2 m ρ c) (Proc.devRef .tc main_v25) = _
    after_results
    try rfl
  rw [e, Layout.splitHeads_apply]
  exact congrFun (W2_arr m ρ c 10) _

/-- The k heads: entry (bh, t, d) is the first kernel's k output at flat row and column of that head. -/
theorem heads_k (c : Dev nD) (bh : Fin 32) (t : Fin 2048) (d : Fin 64) :
    V3 (F := Ideal) m ρ c main_v28 (ix3 bh t d)
      = (dat0 (F := Ideal) (V1 m ρ) c).arrAt 11 cfg0.N (ix2 (headRow bh t) (headCol bh d)) := by
  have e : (V3 (F := Ideal) m ρ c main_v28 : FVec Ideal S32x2048x64 .bf16)
      = shapeCast S32x2048x64 (transpose S2x16x2048x64 [0, 2, 1, 3]
          (shapeCast S2x2048x16x64 (W2 (F := Ideal) m ρ c (Proc.devRef .tc main_v22_1)) shapeCasts_S4096x1024_S2x2048x16x64)
          transposes_S2x2048x16x64_S2x16x2048x64_0_2_1_3) shapeCasts_S2x16x2048x64_S32x2048x64 := by
    show StableHlo.after hostOps1 (W2 m ρ c) (Proc.devRef .tc main_v28) = _
    after_results
    try rfl
  rw [e, Layout.splitHeads_apply]
  exact congrFun (W2_arr m ρ c 11) _

/-- The v heads: entry (bh, t, d) is the first kernel's v output at flat row and column of that head. -/
theorem heads_v (c : Dev nD) (bh : Fin 32) (t : Fin 2048) (d : Fin 64) :
    V3 (F := Ideal) m ρ c main_v31 (ix3 bh t d)
      = (dat0 (F := Ideal) (V1 m ρ) c).arrAt 12 cfg0.N (ix2 (headRow bh t) (headCol bh d)) := by
  have e : (V3 (F := Ideal) m ρ c main_v31 : FVec Ideal S32x2048x64 .bf16)
      = shapeCast S32x2048x64 (transpose S2x16x2048x64 [0, 2, 1, 3]
          (shapeCast S2x2048x16x64 (W2 (F := Ideal) m ρ c (Proc.devRef .tc main_v22_2)) shapeCasts_S4096x1024_S2x2048x16x64)
          transposes_S2x2048x16x64_S2x16x2048x64_0_2_1_3) shapeCasts_S2x16x2048x64_S32x2048x64 := by
    show StableHlo.after hostOps1 (W2 m ρ c) (Proc.devRef .tc main_v31) = _
    after_results
    try rfl
  rw [e, Layout.splitHeads_apply]
  exact congrFun (W2_arr m ρ c 12) _

/-! ## The output projection's operands -/

/-- The attention's output laid flat: entry (r, k) is head (r / 2048)·16 + k / 64, row r % 2048, column k % 64. -/
theorem merged (c : Dev nD) (r : Fin 4096) (k : Fin 1024) :
    V5 (F := Ideal) m ρ c main_v35 (ix2 r k)
      = (dat1 (F := Ideal) (V3 m ρ) c).arrAt 3 cfg1.N
          (ix3 (⟨(r.val / 2048) * 16 + k.val / 64, by omega⟩ : Fin 32) (⟨r.val % 2048, by omega⟩ : Fin 2048)
            (⟨k.val % 64, by omega⟩ : Fin 64)) := by
  have e : (V5 (F := Ideal) m ρ c main_v35 : FVec Ideal S4096x1024 .bf16)
      = shapeCast S4096x1024 (transpose S2x2048x16x64 [0, 2, 1, 3]
          (shapeCast S2x16x2048x64 (W4 (F := Ideal) m ρ c (Proc.devRef .tc main_v32)) shapeCasts_S32x2048x64_S2x16x2048x64)
          transposes_S2x16x2048x64_S2x2048x16x64_0_2_1_3) shapeCasts_S2x2048x16x64_S4096x1024 := by
    show StableHlo.after hostOps2 (W4 m ρ c) (Proc.devRef .tc main_v35) = _
    after_results
    try rfl
  rw [e, Layout.mergeHeads_apply]
  exact congrFun (W4_arr m ρ c 3) _

/-- A host stretch leaves a buffer it does not write as it found it. -/
macro "unwritten " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.reshape_writes, Finset.mem_singleton]
  repeat' apply And.intro
  all_goals exact StableHlo.devRef_ne_of_ne (by decide)))

/-- The output weights are still as launched when the last stretch of host operations before the output projection runs:
    neither the two earlier stretches nor the two earlier kernels write them. -/
theorem wo_kept (c : Dev nD) :
    W4 (F := Ideal) m ρ c (Proc.devRef .tc main_arg7) = m ((c : Thread nD τ).loc main_arg7) :=
  calc W4 (F := Ideal) m ρ c (Proc.devRef .tc main_arg7)
    _ = W3 m ρ c (Proc.devRef .tc main_arg7) := W4_of_ne m ρ c main_arg7 (by decide)
    _ = W2 m ρ c (Proc.devRef .tc main_arg7) := by unwritten hostOps1
    _ = W1 m ρ c (Proc.devRef .tc main_arg7) := W2_of_ne m ρ c main_arg7 (by decide)
    _ = W0 m ρ c (Proc.devRef .tc main_arg7) := by unwritten hostOps0
    _ = m ((c : Thread nD τ).loc main_arg7) := rfl

/-- The output weights transposed: entry (k, o) is the weight's entry (o, k). -/
theorem entry_wo (c : Dev nD) (k o : Fin 1024) :
    V5 (F := Ideal) m ρ c main_v37 (ix2 k o) = mat (m ((c : Thread nD τ).loc main_arg7)) o k := by
  have e : (V5 (F := Ideal) m ρ c main_v37 : FVec Ideal S1024x1024 .bf16)
      = truncf (F := Ideal) .bf16 (transpose S1024x1024 [1, 0] (W4 (F := Ideal) m ρ c (Proc.devRef .tc main_arg7))
          transposes_S1024x1024_S1024x1024_1_0) bitsLt_bf16_f32 := by
    show StableHlo.after hostOps2 (W4 m ρ c) (Proc.devRef .tc main_v37) = _
    after_results
    try rfl
  rw [e]
  show transpose S1024x1024 [1, 0] (W4 (F := Ideal) m ρ c (Proc.devRef .tc main_arg7)) transposes_S1024x1024_S1024x1024_1_0 (ix2 k o) = _
  rw [transpose_ix2_apply]
  exact congrFun (wo_kept m ρ c) _

/-! ## The result -/

/-- The result [2, 2048, 1024] at (b, t, o) is the output projection's array at flat row b·2048 + t. -/
theorem result_apply (c : Dev nD) (i : S2x2048x1024.Idx) :
    W7 (F := Ideal) m ρ c (Proc.devRef .tc main_v39) i
      = (dat2 (F := Ideal) (V5 m ρ) c).arrAt 2 cfg2.N
          (ix2 (⟨(i 0).val * 2048 + (i 1).val, by
            have h0 : (i 0).val < 2 := (i 0).isLt; have h1 : (i 1).val < 2048 := (i 1).isLt; omega⟩ : Fin 4096) (i 2)) := by
  have e : (W7 (F := Ideal) m ρ c (Proc.devRef .tc main_v39) : FVec Ideal S2x2048x1024 .f32)
      = shapeCast S2x2048x1024 (W6 (F := Ideal) m ρ c (Proc.devRef .tc main_v38)) shapeCasts_S4096x1024_S2x2048x1024 := by
    show StableHlo.after hostOps3 (W6 m ρ c) (Proc.devRef .tc main_v39) = _
    after_results
    try rfl
  rw [e, Layout.unflatRows_apply]
  exact congrFun (W6_arr m ρ c 2) _

end Cert.KernelIdeal.Stretch

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.QkvOps.lean ====
import proofs.«109146_j78245714199328_1_alg».proof.Proof.Gen.KernelIdeal.Skeleton
import proofs.«109146_j78245714199328_1_alg».proof.Proof.Spec
import proofs.«109146_j78245714199328_1_alg».proof.Proof.LibPlainDot
import proofs.«109146_j78245714199328_1_alg».proof.Proof.LibTileLayout
import Idealize.ShloMosaic.Lib.Pipeline.Value

/-!
# One tile of the three proxy layers, entry by entry

A grid point holds 512 rows `x` of the activations, and for each of the three layers the whole activated and
transposed weight matrix `w`, the row `b` of its squared row norms and the row `g` of its gains.  It passes the rows
through tanh, sums their squares along each row into a column, multiplies the activated rows into the weights, and
combines column, row and product entry by entry into
`((1 - max 0 (|x_p|² + b_o - 2 ⟨x_p, w_o⟩) / 1024) - 1/2) · g_o`, with one more tanh on the first two layers.
Every step is read here at an entry `(p, o)` written by its coordinates.
-/

noncomputable section

namespace Cert.KernelIdeal.Qkv

open Cert.KernelIdeal Cert.KernelIdeal.Gen Idealize.ShloMosaic Idealize.ShloMosaic.ValueIdx
open Cert.ProxyAttn
open scoped BigOperators

/-! ## The activated rows, their squared norms, and their products with the weights -/

/-- The activated tile at `(p, d)`: tanh of the tile's entry (the reshape is onto the same shape). -/
theorem act_apply (x : FVec Ideal S512x1024 .f32) (p : Fin 512) (d : Fin 1024) :
    k0_pay2 (F := Ideal) x (ix2 p d) = Ideal.tanh (x (ix2 p d)) := by
  unfold k0_pay2
  rw [shapeCast_self]
  rfl

/-- The activated tile in the narrower format holds the same numbers. -/
theorem act16_apply (x : FVec Ideal S512x1024 .f32) (p : Fin 512) (d : Fin 1024) :
    k0_pay4 (F := Ideal) x (ix2 p d) = Ideal.tanh (x (ix2 p d)) := by
  unfold k0_pay4
  exact act_apply x p d

/-- The column of squared row norms at `(p, 0)`: the sum over row `p` of the squares of the activated entries. -/
theorem rownorm_apply (x : FVec Ideal S512x1024 .f32) (p : Fin 512) (u : Fin 1) :
    k0_pay3 (F := Ideal) x (ix2 p u) = ∑ d : Fin 1024, Ideal.tanh (x (ix2 p d)) * Ideal.tanh (x (ix2 p d)) := by
  unfold k0_pay3
  refine (Cert.TileLayout.shapeCast_a_a1_apply _ _ p u).trans ?_
  refine (Cert.TileLayout.sum_axis1_apply _ _ _ _ _ p).trans ?_
  refine Finset.sum_congr rfl fun d _ => ?_
  show k0_pay2 (F := Ideal) x (ix2 p d) * k0_pay2 (F := Ideal) x (ix2 p d) = _
  rw [act_apply]

/-- A tile of rows times a whole weight matrix into a zero accumulator, at `(p, o)`. -/
theorem rows_weights_apply (y : FVec Ideal S512x1024 .bf16) (w : FVec Ideal S1024x1024 .bf16) (p : Fin 512) (o : Fin 1024) :
    matmul (F := Ideal) dot_S512x1024_S1024x1024_S512x1024_1_0_0_1_n_n none y
        (shapeCast S1024x1024 w shapeCasts_S1024x1024_S1024x1024) (constant S512x1024 .f32 0x00000000#32) (ix2 p o)
      = ∑ d : Fin 1024, y (ix2 p d) * w (ix2 d o) := by
  rw [shapeCast_self]
  exact Cert.LibPlainDot.matmul_zero_apply _ ⟨rfl, rfl, rfl, rfl, rfl, rfl⟩ none y w p o

/-- The activated rows times the weights, at `(p, o)`. -/
theorem dot_apply (x : FVec Ideal S512x1024 .f32) (w : FVec Ideal S1024x1024 .bf16) (p : Fin 512) (o : Fin 1024) :
    k0_pay6 (F := Ideal) x w (ix2 p o) = ∑ d : Fin 1024, Ideal.tanh (x (ix2 p d)) * w (ix2 d o) := by
  unfold k0_pay6
  refine (rows_weights_apply (k0_pay4 (F := Ideal) x) w p o).trans ?_
  exact Finset.sum_congr rfl fun d _ => by rw [act16_apply]

/-! ## One minus the clipped squared distance over 1024 -/

/-- The tile `1 - max 0 (a + b - 2 m) / 1024` from a column `a`, a row `b` and a tile `m`, as the three layers write it. -/
def core (a : FVec Ideal S512x1 .f32) (m : FVec Ideal S512x1024 .f32) (b : FVec Ideal S1x1024 .f32) : FVec Ideal S512x1024 .f32 :=
  subf (broadcast S512x1024 (Scalar.ofBits .f32 0x3F800000#32))
    (divf (maximumf (broadcast S512x1024 (Scalar.ofBits .f32 0x00000000#32))
        (subf (addf (broadcastTo S512x1024 a broadcasts_S512x1_S512x1024)
            (broadcastTo S512x1024 (shapeCast S1x1024 b shapeCasts_S1x1024_S1x1024) broadcasts_S1x1024_S512x1024))
          (mulf (broadcast S512x1024 (Scalar.ofBits .f32 0x40000000#32)) m)))
      (broadcast S512x1024 (Scalar.ofBits .f32 0x44800000#32)))

/-- At `(p, o)` it depends on the column's entry `p`, the row's entry `o` and the tile's entry `(p, o)`. -/
theorem core_apply (a : FVec Ideal S512x1 .f32) (m : FVec Ideal S512x1024 .f32) (b : FVec Ideal S1x1024 .f32)
    (p : Fin 512) (o : Fin 1024) :
    core a m b (ix2 p o)
      = one - Ideal.div (Cert.ProxyAttn.dist (a (ix2 p (0 : Fin 1))) (b (ix2 (0 : Fin 1) o)) (m (ix2 p o))) c1024 := by
  unfold core Cert.ProxyAttn.dist
  show Ideal.ofBits .f32 0x3F800000#32 - Ideal.div (max (Ideal.ofBits .f32 0x00000000#32)
      (broadcastTo S512x1024 a broadcasts_S512x1_S512x1024 (ix2 p o)
        + broadcastTo S512x1024 (shapeCast S1x1024 b shapeCasts_S1x1024_S1x1024) broadcasts_S1x1024_S512x1024 (ix2 p o)
        - Ideal.ofBits .f32 0x40000000#32 * m (ix2 p o))) (Ideal.ofBits .f32 0x44800000#32) = _
  rw [Cert.TileLayout.broadcastTo_a1_ab_apply, broadcastTo_1b_ab_apply, shapeCast_self]

/-! ## The three layers' tiles -/

/-- A layer's tile with the last tanh, from the column of row norms `a` and the products `m` already formed. -/
theorem gated_tanh_apply (a : FVec Ideal S512x1 .f32) (m : FVec Ideal S512x1024 .f32) (b g : FVec Ideal S1x1024 .f32)
    (p : Fin 512) (o : Fin 1024) :
    k0_pay7 (F := Ideal) a m b g (ix2 p o)
      = Ideal.tanh (gate (a (ix2 p (0 : Fin 1))) (b (ix2 (0 : Fin 1) o)) (m (ix2 p o)) (g (ix2 (0 : Fin 1) o))) := by
  show Ideal.tanh ((core a m b (ix2 p o) - Ideal.ofBits .f32 0x3F000000#32)
      * broadcastTo S512x1024 (shapeCast S1x1024 g shapeCasts_S1x1024_S1x1024) broadcasts_S1x1024_S512x1024 (ix2 p o)) = _
  rw [core_apply, broadcastTo_1b_ab_apply, shapeCast_self]
  rfl

/-- A layer's tile without the last tanh, the products formed from the activated rows `y` and the weights `w`. -/
theorem gated_apply (a : FVec Ideal S512x1 .f32) (y : FVec Ideal S512x1024 .bf16) (w : FVec Ideal S1024x1024 .bf16)
    (b g : FVec Ideal S1x1024 .f32) (p : Fin 512) (o : Fin 1024) :
    k0_pay1 (F := Ideal) (k0_pay8 (F := Ideal) a y w b) (Scalar.ofBits .f32 0x3F000000#32) g (ix2 p o)
      = gate (a (ix2 p (0 : Fin 1))) (b (ix2 (0 : Fin 1) o)) (∑ d : Fin 1024, y (ix2 p d) * w (ix2 d o)) (g (ix2 (0 : Fin 1) o)) := by
  show (core a (matmul (F := Ideal) dot_S512x1024_S1024x1024_S512x1024_1_0_0_1_n_n none y
        (shapeCast S1024x1024 w shapeCasts_S1024x1024_S1024x1024) (constant S512x1024 .f32 0x00000000#32)) b (ix2 p o)
        - Ideal.ofBits .f32 0x3F000000#32)
      * broadcastTo S512x1024 (shapeCast S1x1024 g shapeCasts_S1x1024_S1x1024) broadcasts_S1x1024_S512x1024 (ix2 p o) = _
  rw [core_apply, broadcastTo_1b_ab_apply, rows_weights_apply, shapeCast_self]
  rfl

/-- The first layer's tile at `(p, o)`. -/
theorem q_tile_apply (x : FVec Ideal S512x1024 .f32) (w : FVec Ideal S1024x1024 .bf16) (b g : FVec Ideal S1x1024 .f32)
    (p : Fin 512) (o : Fin 1024) :
    k0_pay5 (F := Ideal) x w b g (ix2 p o)
      = Ideal.tanh (gate (∑ d : Fin 1024, Ideal.tanh (x (ix2 p d)) * Ideal.tanh (x (ix2 p d))) (b (ix2 (0 : Fin 1) o))
          (∑ d : Fin 1024, Ideal.tanh (x (ix2 p d)) * w (ix2 d o)) (g (ix2 (0 : Fin 1) o))) := by
  show k0_pay7 (F := Ideal) (k0_pay3 (F := Ideal) x) (k0_pay6 (F := Ideal) x w) b g (ix2 p o) = _
  rw [gated_tanh_apply, rownorm_apply, dot_apply]

/-- The second layer's tile at `(p, o)`. -/
theorem k_tile_apply (x : FVec Ideal S512x1024 .f32) (w : FVec Ideal S1024x1024 .bf16) (b g : FVec Ideal S1x1024 .f32)
    (p : Fin 512) (o : Fin 1024) :
    k0_pay7 (F := Ideal) (k0_pay3 (F := Ideal) x) (k0_pay6 (F := Ideal) x w) b g (ix2 p o)
      = Ideal.tanh (gate (∑ d : Fin 1024, Ideal.tanh (x (ix2 p d)) * Ideal.tanh (x (ix2 p d))) (b (ix2 (0 : Fin 1) o))
          (∑ d : Fin 1024, Ideal.tanh (x (ix2 p d)) * w (ix2 d o)) (g (ix2 (0 : Fin 1) o))) := by
  rw [gated_tanh_apply, rownorm_apply, dot_apply]

/-- The third layer's tile at `(p, o)`: no last tanh. -/
theorem v_tile_apply (x : FVec Ideal S512x1024 .f32) (w : FVec Ideal S1024x1024 .bf16) (b g : FVec Ideal S1x1024 .f32)
    (p : Fin 512) (o : Fin 1024) :
    k0_pay1 (F := Ideal) (k0_pay8 (F := Ideal) (k0_pay3 (F := Ideal) x) (k0_pay4 (F := Ideal) x) w b)
        (Scalar.ofBits .f32 0x3F000000#32) g (ix2 p o)
      = gate (∑ d : Fin 1024, Ideal.tanh (x (ix2 p d)) * Ideal.tanh (x (ix2 p d))) (b (ix2 (0 : Fin 1) o))
          (∑ d : Fin 1024, Ideal.tanh (x (ix2 p d)) * w (ix2 d o)) (g (ix2 (0 : Fin 1) o)) := by
  rw [gated_apply, rownorm_apply]
  refine congrArg (fun s => gate _ _ s _) ?_
  exact Finset.sum_congr rfl fun d _ => by rw [act16_apply]

end Cert.KernelIdeal.Qkv

end
-- ==== Proof.QkvTile.lean ====
import proofs.«109146_j78245714199328_1_alg».proof.Proof.QkvOps

/-!
# A tile's entry as an entry of the whole layer

Entry `(p, q)` of a layer's tile is built from row `p` of the tile of activations, column `q` of the weights and
entry `q` of the two rows of norms and gains.  When row `p` of the tile is row `r` of the whole array of activations
and the tile's column `q` is the layer's column `o`, this is entry `(r, o)` of the whole layer.
-/

noncomputable section

namespace Cert.KernelIdeal.Qkv

open Cert.KernelIdeal Cert.KernelIdeal.Gen Idealize.ShloMosaic Idealize.ShloMosaic.ValueIdx
open Cert.ProxyAttn
open scoped BigOperators

/-- The layer's entry from equal ingredients. -/
theorem gate_congr {a a' b b' d d' g g' : EReal} (ha : a = a') (hb : b = b') (hd : d = d') (hg : g = g') :
    gate a b d g = gate a' b' d' g' := by
  subst ha hb hd hg; rfl

section

variable (x : FVec Ideal S512x1024 .f32) (w : FVec Ideal S1024x1024 .bf16) (b g : FVec Ideal S1x1024 .f32)
  (X : Fin 4096 → Fin 1024 → EReal) (W : Fin 1024 → Fin 1024 → EReal) (B G : Fin 1024 → EReal)
  (p : Fin 512) (q : Fin 1024) (r : Fin 4096) (o : Fin 1024)

/-- The tile's ingredients at `(p, q)` are the whole layer's at `(r, o)`. -/
theorem entry_eq (hx : ∀ d : Fin 1024, x (ix2 p d) = X r d) (hw : ∀ d : Fin 1024, w (ix2 d q) = W d o)
    (hb : b (ix2 (0 : Fin 1) q) = B o) (hg : g (ix2 (0 : Fin 1) q) = G o) :
    gate (∑ d : Fin 1024, Ideal.tanh (x (ix2 p d)) * Ideal.tanh (x (ix2 p d))) (b (ix2 (0 : Fin 1) q))
        (∑ d : Fin 1024, Ideal.tanh (x (ix2 p d)) * w (ix2 d q)) (g (ix2 (0 : Fin 1) q))
      = projK X W B G r o := by
  unfold projK
  exact gate_congr (Finset.sum_congr rfl fun d _ => by rw [hx d]) hb
    (Finset.sum_congr rfl fun d _ => by rw [hx d, hw d]) hg

/-- The first layer's tile. -/
theorem q_tile_eq (hx : ∀ d : Fin 1024, x (ix2 p d) = X r d) (hw : ∀ d : Fin 1024, w (ix2 d q) = W d o)
    (hb : b (ix2 (0 : Fin 1) q) = B o) (hg : g (ix2 (0 : Fin 1) q) = G o) :
    k0_pay5 (F := Ideal) x w b g (ix2 p q) = Ideal.tanh (projK X W B G r o) :=
  (q_tile_apply x w b g p q).trans (congrArg Ideal.tanh (entry_eq x w b g X W B G p q r o hx hw hb hg))

/-- The second layer's tile. -/
theorem k_tile_eq (hx : ∀ d : Fin 1024, x (ix2 p d) = X r d) (hw : ∀ d : Fin 1024, w (ix2 d q) = W d o)
    (hb : b (ix2 (0 : Fin 1) q) = B o) (hg : g (ix2 (0 : Fin 1) q) = G o) :
    k0_pay7 (F := Ideal) (k0_pay3 (F := Ideal) x) (k0_pay6 (F := Ideal) x w) b g (ix2 p q)
      = Ideal.tanh (projK X W B G r o) :=
  (k_tile_apply x w b g p q).trans (congrArg Ideal.tanh (entry_eq x w b g X W B G p q r o hx hw hb hg))

/-- The third layer's tile. -/
theorem v_tile_eq (hx : ∀ d : Fin 1024, x (ix2 p d) = X r d) (hw : ∀ d : Fin 1024, w (ix2 d q) = W d o)
    (hb : b (ix2 (0 : Fin 1) q) = B o) (hg : g (ix2 (0 : Fin 1) q) = G o) :
    k0_pay1 (F := Ideal) (k0_pay8 (F := Ideal) (k0_pay3 (F := Ideal) x) (k0_pay4 (F := Ideal) x) w b)
        (Scalar.ofBits .f32 0x3F000000#32) g (ix2 p q)
      = projK X W B G r o :=
  (v_tile_apply x w b g p q).trans (entry_eq x w b g X W B G p q r o hx hw hb hg)

end

end Cert.KernelIdeal.Qkv

end
-- ==== Proof.QkvBlocks.lean ====
import proofs.«109146_j78245714199328_1_alg».proof.Proof.Gen.KernelIdeal.Frame
import Idealize.ShloMosaic.Lib.Pipeline.Value
import Idealize.ShloMosaic.Lib.ValueIdx

/-!
# The tiles the three proxy layers read and write, as parts of the whole arrays

The grid has eight points.  At point `t` the tile of activations is rows `512 t … 512 t + 511` of the flat
[4096, 1024] array, each of the three result tiles is the same rows of its result array, and the three weight
matrices, their rows of squared norms and the rows of gains are read whole at every point.  A tile's entry sits in
its array, on each axis, at the block index times the tile's extent plus the coordinate inside the tile.
-/

noncomputable section

namespace Cert.KernelIdeal.Qkv

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The two zero offsets of a whole-tile access, as the constant function. -/
theorem offsets_zero : (![0, 0] : Fin 2 → Nat) = fun _ => 0 := funext fun a => by fin_cases a <;> rfl

/-! ## The printed index maps over the grid -/

/-- The tile of activations at point `t` is row block `t`. -/
theorem rows_index : ∀ t : Fin cfg0.N, win0_0.index t (0 : Fin 2) = t.val ∧ win0_0.index t (1 : Fin 2) = 0 :=
  (by decide +kernel : ∀ t : Fin grid0.N, _)

/-- The weights, their norms and the gains are read whole: every block index is zero. -/
theorem whole_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Each result tile at point `t` is row block `t`. -/
theorem out_index : ∀ t : Fin cfg0.N,
    (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input tiles read off their arrays -/

/-- Row `p` of the tile of activations at point `t` is row `512 t + p` of the flat array. -/
theorem rows_read (c : Dev nD) (t : Fin cfg0.N) (p : Fin 512) (d : Fin 1024) (r : Fin 4096)
    (hr : r.val = t.val * 512 + p.val) :
    iblk0 V c 0 t (ix2 p d) = V c main_v21 (ix2 r d) := by
  obtain ⟨e0, e1⟩ := rows_index t
  show V c main_v21 (((cfg0.win 0).blk t).view.emb (ix2 p d)) = V c main_v21 (ix2 r d)
  refine congrArg (V c main_v21) (funext fun a => Fin.ext ?_)
  match a with
  | ⟨0, _⟩ => show win0_0.index t (0 : Fin 2) * 512 + 1 * p.val = r.val; omega
  | ⟨1, _⟩ => show win0_0.index t (1 : Fin 2) * 1024 + 1 * d.val = d.val; omega

/-- The weight matrix of window 1 is read whole at every point. -/
theorem weights_read1 (c : Dev nD) (t : Fin cfg0.N) (d o : Fin 1024) :
    iblk0 V c 1 t (ix2 d o) = V c main_v4 (ix2 d o) := by
  obtain ⟨e0, e1⟩ := (whole_index t).1
  show V c main_v4 (((cfg0.win 1).blk t).view.emb (ix2 d o)) = V c main_v4 (ix2 d o)
  refine congrArg (V c main_v4) (funext fun a => Fin.ext ?_)
  match a with
  | ⟨0, _⟩ => show win0_1.index t (0 : Fin 2) * 1024 + 1 * d.val = d.val; omega
  | ⟨1, _⟩ => show win0_1.index t (1 : Fin 2) * 1024 + 1 * o.val = o.val; omega

/-- The weight matrix of window 2 is read whole at every point. -/
theorem weights_read2 (c : Dev nD) (t : Fin cfg0.N) (d o : Fin 1024) :
    iblk0 V c 2 t (ix2 d o) = V c main_v6 (ix2 d o) := by
  obtain ⟨e0, e1⟩ := (whole_index t).2.1
  show V c main_v6 (((cfg0.win 2).blk t).view.emb (ix2 d o)) = V c main_v6 (ix2 d o)
  refine congrArg (V c main_v6) (funext fun a => Fin.ext ?_)
  match a with
  | ⟨0, _⟩ => show win0_2.index t (0 : Fin 2) * 1024 + 1 * d.val = d.val; omega
  | ⟨1, _⟩ => show win0_2.index t (1 : Fin 2) * 1024 + 1 * o.val = o.val; omega

/-- The weight matrix of window 3 is read whole at every point. -/
theorem weights_read3 (c : Dev nD) (t : Fin cfg0.N) (d o : Fin 1024) :
    iblk0 V c 3 t (ix2 d o) = V c main_v8 (ix2 d o) := by
  obtain ⟨e0, e1⟩ := (whole_index t).2.2.1
  show V c main_v8 (((cfg0.win 3).blk t).view.emb (ix2 d o)) = V c main_v8 (ix2 d o)
  refine congrArg (V c main_v8) (funext fun a => Fin.ext ?_)
  match a with
  | ⟨0, _⟩ => show win0_3.index t (0 : Fin 2) * 1024 + 1 * d.val = d.val; omega
  | ⟨1, _⟩ => show win0_3.index t (1 : Fin 2) * 1024 + 1 * o.val = o.val; omega

/-- The row of window 4 is read whole at every point. -/
theorem row_read4 (c : Dev nD) (t : Fin cfg0.N) (o : Fin 1024) :
    iblk0 V c 4 t (ix2 (0 : Fin 1) o) = V c main_v11 (ix2 (0 : Fin 1) o) := by
  obtain ⟨e0, e1⟩ := (whole_index t).2.2.2.1
  show V c main_v11 (((cfg0.win 4).blk t).view.emb (ix2 (0 : Fin 1) o)) = V c main_v11 (ix2 (0 : Fin 1) o)
  refine congrArg (V c main_v11) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 1024 + 1 * o.val = o.val; omega

/-- The row of window 5 is read whole at every point. -/
theorem row_read5 (c : Dev nD) (t : Fin cfg0.N) (o : Fin 1024) :
    iblk0 V c 5 t (ix2 (0 : Fin 1) o) = V c main_v14 (ix2 (0 : Fin 1) o) := by
  obtain ⟨e0, e1⟩ := (whole_index t).2.2.2.2.1
  show V c main_v14 (((cfg0.win 5).blk t).view.emb (ix2 (0 : Fin 1) o)) = V c main_v14 (ix2 (0 : Fin 1) o)
  refine congrArg (V c main_v14) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 1024 + 1 * o.val = o.val; omega

/-- The row of window 6 is read whole at every point. -/
theorem row_read6 (c : Dev nD) (t : Fin cfg0.N) (o : Fin 1024) :
    iblk0 V c 6 t (ix2 (0 : Fin 1) o) = V c main_v17 (ix2 (0 : Fin 1) o) := by
  obtain ⟨e0, e1⟩ := (whole_index t).2.2.2.2.2.1
  show V c main_v17 (((cfg0.win 6).blk t).view.emb (ix2 (0 : Fin 1) o)) = V c main_v17 (ix2 (0 : Fin 1) o)
  refine congrArg (V c main_v17) (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 1024 + 1 * o.val = o.val; omega

/-- The row of window 7 is read whole at every point. -/
theorem row_read7 (c : Dev nD) (t : Fin cfg0.N) (o : Fin 1024) :
    iblk0 V c 7 t (ix2 (0 : Fin 1) o) = V c main_v18 (ix2 (0 : Fin 1) o) := by
  obtain ⟨e0, e1⟩ := (whole_index t).2.2.2.2.2.2.1
  show V c main_v18 (((cfg0.win 7).blk t).view.emb (ix2 (0 : Fin 1) o)) = V c main_v18 (ix2 (0 : Fin 1) o)
  refine congrArg (V c main_v18) (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 1024 + 1 * o.val = o.val; omega

/-- The row of window 8 is read whole at every point. -/
theorem row_read8 (c : Dev nD) (t : Fin cfg0.N) (o : Fin 1024) :
    iblk0 V c 8 t (ix2 (0 : Fin 1) o) = V c main_v19 (ix2 (0 : Fin 1) o) := by
  obtain ⟨e0, e1⟩ := (whole_index t).2.2.2.2.2.2.2.1
  show V c main_v19 (((cfg0.win 8).blk t).view.emb (ix2 (0 : Fin 1) o)) = V c main_v19 (ix2 (0 : Fin 1) o)
  refine congrArg (V c main_v19) (funext fun a => Fin.ext ?_)
  match a with
  | ⟨0, _⟩ => show win0_8.index t (0 : Fin 2) * 1 + 1 * (0 : Fin 1).val = (0 : Fin 1).val; omega
  | ⟨1, _⟩ => show win0_8.index t (1 : Fin 2) * 1024 + 1 * o.val = o.val; omega

/-- The row of window 9 is read whole at every point. -/
theorem row_read9 (c : Dev nD) (t : Fin cfg0.N) (o : Fin 1024) :
    iblk0 V c 9 t (ix2 (0 : Fin 1) o) = V c main_v20 (ix2 (0 : Fin 1) o) := by
  obtain ⟨e0, e1⟩ := (whole_index t).2.2.2.2.2.2.2.2
  show V c main_v20 (((cfg0.win 9).blk t).view.emb (ix2 (0 : Fin 1) o)) = V c main_v20 (ix2 (0 : Fin 1) o)
  refine congrArg (V c main_v20) (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 1024 + 1 * o.val = o.val; omega

end Cert.KernelIdeal.Qkv

end
-- ==== Proof.QkvQ.lean ====
import proofs.«109146_j78245714199328_1_alg».proof.Proof.Gen.KernelIdeal.Frame
import proofs.«109146_j78245714199328_1_alg».proof.Proof.Spec
import proofs.«109146_j78245714199328_1_alg».proof.Proof.QkvTile
import proofs.«109146_j78245714199328_1_alg».proof.Proof.QkvBlocks
import Idealize.ShloMosaic.Lib.Pipeline.Value

/-!
# The first (query) proxy layer, from row tiles to the whole array

Point `t` of the grid writes rows `512 t … 512 t + 511` of the layer's result.  Entry `(p, q)` of what it writes is
built from row `512 t + p` of the activations and from column `q` of the layer's weights, norms and gains, so it is
entry `(512 t + p, q)` of the whole layer; the eight row tiles fill the 4096 rows (row `r` lies in the tile of point
`r / 512`), so the array ends holding the layer.
-/

noncomputable section

namespace Cert.KernelIdeal.Qkv

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- What point `t` writes back is tile `t` of the whole layer of the arrays as the region finds them. -/
theorem flushed_q (c : Dev nD) (t : Fin cfg0.N) :
    (dat0 (F := Ideal) V c).flushed 10 t = ((cfg0.win 10).blk t).view.read (Elt Ideal)
      (fun i => Ideal.tanh (Cert.ProxyAttn.projK (fun r d => V c main_v21 (ix2 r d)) (fun d o => V c main_v4 (ix2 d o))
        (fun o => V c main_v11 (ix2 (0 : Fin 1) o)) (fun o => V c main_v18 (ix2 (0 : Fin 1) o)) (i 0) (i 1))) := by
  show (cfg0.win 10).cut (grid0.coords t) ((dat0 V c).after 10 t) = _
  rw [after0_10]
  unfold out0_10
  rw [View.canon_unit_zero offsets_zero]
  simp only [View.ld_unit_zero (S := S512x1024) offsets_zero, View.ld_unit_zero (S := S1024x1024) offsets_zero,
    View.ld_unit_zero (S := S1x1024) offsets_zero]
  obtain ⟨e0, e1⟩ := (out_index t).1
  funext j
  obtain ⟨p, q, rfl⟩ : ∃ (p : Fin 512) (q : Fin 1024), j = ix2 p q := ⟨j 0, j 1, eq_ix2 j⟩
  show k0_pay5 (F := Ideal) (iblk0 V c 0 t) (iblk0 V c 1 t) (iblk0 V c 4 t) (iblk0 V c 7 t) (ix2 p q)
    = Ideal.tanh (Cert.ProxyAttn.projK (fun r d => V c main_v21 (ix2 r d)) (fun d o => V c main_v4 (ix2 d o))
        (fun o => V c main_v11 (ix2 (0 : Fin 1) o)) (fun o => V c main_v18 (ix2 (0 : Fin 1) o)) ((((cfg0.win 10).blk t).view.emb (ix2 p q)) 0) ((((cfg0.win 10).blk t).view.emb (ix2 p q)) 1))
  have hq : (((cfg0.win 10).blk t).view.emb (ix2 p q)) 1 = q :=
    Fin.ext (by show win0_10.index t (1 : Fin 2) * 1024 + 1 * q.val = q.val; omega)
  have hr : ((((cfg0.win 10).blk t).view.emb (ix2 p q)) 0).val = t.val * 512 + p.val := by
    show win0_10.index t (0 : Fin 2) * 512 + 1 * p.val = t.val * 512 + p.val; omega
  rw [hq]
  exact q_tile_eq (iblk0 V c 0 t) (iblk0 V c 1 t) (iblk0 V c 4 t) (iblk0 V c 7 t) _ _ _ _ p q _ q
    (fun d => rows_read V c t p d _ hr) (fun d => weights_read1 V c t d q) (row_read4 V c t q) (row_read7 V c t q)

/-- An index of the result array lies in point `t`'s tile iff each coordinate lies in the tile's range on its axis. -/
theorem mem_tile_q (t : Fin cfg0.N) (i : S4096x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v22_0).slice (win0_10.rect t)).set ↔ _
  rw [View.set_slice_whole, Rect.mem_set_unit]
  exact Iff.rfl

/-- The eight row tiles fill the array: row `r` lies in the tile of point `r / 512`. -/
theorem tiles_cover_q (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := (out_index t).1
  refine ⟨t, flush0_10 t, ?_⟩
  rw [mem_tile_q]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- The layer's result array after the region. -/
theorem region0_q (c : Dev nD) :
    (Gen.dat0 (F := Ideal) V c).arrAt 10 cfg0.N = fun i =>
      Ideal.tanh (Cert.ProxyAttn.projK (fun r d => V c main_v21 (ix2 r d)) (fun d o => V c main_v4 (ix2 d o))
        (fun o => V c main_v11 (ix2 (0 : Fin 1) o)) (fun o => V c main_v18 (ix2 (0 : Fin 1) o)) (i 0) (i 1)) :=
  (dat0 (F := Ideal) V c).arrAt_eq_of_cover 10 _ (fun t _ => flushed_q V c t) tiles_cover_q

end Cert.KernelIdeal.Qkv

end
-- ==== Proof.QkvK.lean ====
import proofs.«109146_j78245714199328_1_alg».proof.Proof.Gen.KernelIdeal.Frame
import proofs.«109146_j78245714199328_1_alg».proof.Proof.Spec
import proofs.«109146_j78245714199328_1_alg».proof.Proof.QkvTile
import proofs.«109146_j78245714199328_1_alg».proof.Proof.QkvBlocks
import Idealize.ShloMosaic.Lib.Pipeline.Value

/-!
# The second (key) proxy layer, from row tiles to the whole array

Point `t` of the grid writes rows `512 t … 512 t + 511` of the layer's result.  Entry `(p, q)` of what it writes is
built from row `512 t + p` of the activations and from column `q` of the layer's weights, norms and gains, so it is
entry `(512 t + p, q)` of the whole layer; the eight row tiles fill the 4096 rows (row `r` lies in the tile of point
`r / 512`), so the array ends holding the layer.
-/

noncomputable section

namespace Cert.KernelIdeal.Qkv

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- What point `t` writes back is tile `t` of the whole layer of the arrays as the region finds them. -/
theorem flushed_k (c : Dev nD) (t : Fin cfg0.N) :
    (dat0 (F := Ideal) V c).flushed 11 t = ((cfg0.win 11).blk t).view.read (Elt Ideal)
      (fun i => Ideal.tanh (Cert.ProxyAttn.projK (fun r d => V c main_v21 (ix2 r d)) (fun d o => V c main_v6 (ix2 d o))
        (fun o => V c main_v14 (ix2 (0 : Fin 1) o)) (fun o => V c main_v19 (ix2 (0 : Fin 1) o)) (i 0) (i 1))) := by
  show (cfg0.win 11).cut (grid0.coords t) ((dat0 V c).after 11 t) = _
  rw [after0_11]
  unfold out0_11
  rw [View.canon_unit_zero offsets_zero]
  simp only [View.ld_unit_zero (S := S512x1024) offsets_zero, View.ld_unit_zero (S := S1024x1024) offsets_zero,
    View.ld_unit_zero (S := S1x1024) offsets_zero]
  obtain ⟨e0, e1⟩ := (out_index t).2.1
  funext j
  obtain ⟨p, q, rfl⟩ : ∃ (p : Fin 512) (q : Fin 1024), j = ix2 p q := ⟨j 0, j 1, eq_ix2 j⟩
  show k0_pay7 (F := Ideal) (k0_pay3 (F := Ideal) (iblk0 V c 0 t)) (k0_pay6 (F := Ideal) (iblk0 V c 0 t) (iblk0 V c 2 t)) (iblk0 V c 5 t) (iblk0 V c 8 t) (ix2 p q)
    = Ideal.tanh (Cert.ProxyAttn.projK (fun r d => V c main_v21 (ix2 r d)) (fun d o => V c main_v6 (ix2 d o))
        (fun o => V c main_v14 (ix2 (0 : Fin 1) o)) (fun o => V c main_v19 (ix2 (0 : Fin 1) o)) ((((cfg0.win 11).blk t).view.emb (ix2 p q)) 0) ((((cfg0.win 11).blk t).view.emb (ix2 p q)) 1))
  have hq : (((cfg0.win 11).blk t).view.emb (ix2 p q)) 1 = q :=
    Fin.ext (by show win0_11.index t (1 : Fin 2) * 1024 + 1 * q.val = q.val; omega)
  have hr : ((((cfg0.win 11).blk t).view.emb (ix2 p q)) 0).val = t.val * 512 + p.val := by
    show win0_11.index t (0 : Fin 2) * 512 + 1 * p.val = t.val * 512 + p.val; omega
  rw [hq]
  exact k_tile_eq (iblk0 V c 0 t) (iblk0 V c 2 t) (iblk0 V c 5 t) (iblk0 V c 8 t) _ _ _ _ p q _ q
    (fun d => rows_read V c t p d _ hr) (fun d => weights_read2 V c t d q) (row_read5 V c t q) (row_read8 V c t q)

/-- An index of the result array lies in point `t`'s tile iff each coordinate lies in the tile's range on its axis. -/
theorem mem_tile_k (t : Fin cfg0.N) (i : S4096x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v22_1).slice (win0_11.rect t)).set ↔ _
  rw [View.set_slice_whole, Rect.mem_set_unit]
  exact Iff.rfl

/-- The eight row tiles fill the array: row `r` lies in the tile of point `r / 512`. -/
theorem tiles_cover_k (i : S4096x1024.Idx) :
    ∃ t : Fin cfg0.N, (cfg0.win 11).flush t = true ∧ i ∈ ((cfg0.win 11).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := (out_index t).2.1
  refine ⟨t, flush0_11 t, ?_⟩
  rw [mem_tile_k]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

/-- The layer's result array after the region. -/
theorem region0_k (c : Dev nD) :
    (Gen.dat0 (F := Ideal) V c).arrAt 11 cfg0.N = fun i =>
      Ideal.tanh (Cert.ProxyAttn.projK (fun r d => V c main_v21 (ix2 r d)) (fun d o => V c main_v6 (ix2 d o))
        (fun o => V c main_v14 (ix2 (0 : Fin 1) o)) (fun o => V c main_v19 (ix2 (0 : Fin 1) o)) (i 0) (i 1)) :=
  (dat0 (F := Ideal) V c).arrAt_eq_of_cover 11 _ (fun t _ => flushed_k V c t) tiles_cover_k

end Cert.KernelIdeal.Qkv

end
-- ==== Proof.QkvV.lean ====
import proofs.«109146_j78245714199328_1_alg».proof.Proof.Gen.KernelIdeal.Frame
import proofs.«109146_j78245714199328_1_alg».proof.Proof.Spec
import proofs.«109146_j78245714199328_1_alg».proof.Proof.QkvTile
import proofs.«109146_j78245714199328_1_alg».proof.Proof.QkvBlocks
import Idealize.ShloMosaic.Lib.Pipeline.Value

/-!
# The third (value) proxy layer, from row tiles to the whole array

Point `t` of the grid writes rows `512 t … 512 t + 511` of the layer's result.  Entry `(p, q)` of what it writes is
built from row `512 t + p` of the activations and from column `q` of the layer's weights, norms and gains, so it is
entry `(512 t + p, q)` of the whole layer; the eight row tiles fill the 4096 rows (row `r` lies in the tile of point
`r / 512`), so the array ends holding the layer.
-/

noncomputable section

namespace Cert.KernelIdeal.Qkv

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- What point `t` writes back is tile `t` of the whole layer of the arrays as the region finds them. -/
theorem flushed_v (c : Dev nD) (t : Fin cfg0.N) :
    (dat0 (F := Ideal) V c).flushed 12 t = ((cfg0.win 12).blk t).view.read (Elt Ideal)
      (fun i => Cert.ProxyAttn.projK (fun r d => V c main_v21 (ix2 r d)) (fun d o => V c main_v8 (ix2 d o))
        (fun o => V c main_v17 (ix2 (0 : Fin 1) o)) (fun o => V c main_v20 (ix2 (0 : Fin 1) o)) (i 0) (i 1)) := by
  show (cfg0.win 12).cut (grid0.coords t) ((dat0 V c).after 12 t) = _
  rw [after0_12]
  unfold out0_12
  rw [View.canon_unit_zero offsets_zero]
  simp only [View.ld_unit_zero (S := S512x1024) offsets_zero, View.ld_unit_zero (S := S1024x1024) offsets_zero,
    View.ld_unit_zero (S := S1x1024) offsets_zero]
  obtain ⟨e0, e1⟩ := (out_index t).2.2
  funext j
  obtain ⟨p, q, rfl⟩ : ∃ (p : Fin 512) (q : Fin 1024), j = ix2 p q := ⟨j 0, j 1, eq_ix2 j⟩
  show k0_pay1 (F := Ideal) (k0_pay8 (F := Ideal) (k0_pay3 (F := Ideal) (iblk0 V c 0 t)) (k0_pay4 (F := Ideal) (iblk0 V c 0 t)) (iblk0 V c 3 t) (iblk0 V c 6 t)) (Scalar.ofBits .f32 0x3F000000#32) (iblk0 V c 9 t) (ix2 p q)
    = Cert.ProxyAttn.projK (fun r d => V c main_v21 (ix2 r d)) (fun d o => V c main_v8 (ix2 d o))
        (fun o => V c main_v17 (ix2 (0 : Fin 1) o)) (fun o => V c main_v20 (ix2 (0 : Fin 1) o)) ((((cfg0.win 12).blk t).view.emb (ix2 p q)) 0) ((((cfg0.win 12).blk t).view.emb (ix2 p q)) 1)
  have hq : (((cfg0.win 12).blk t).view.emb (ix2 p q)) 1 = q :=
    Fin.ext (by show win0_12.index t (1 : Fin 2) * 1024 + 1 * q.val = q.val; omega)
  have hr : ((((cfg0.win 12).blk t).view.emb (ix2 p q)) 0).val = t.val * 512 + p.val := by
    show win0_12.index t (0 : Fin 2) * 512 + 1 * p.val = t.val * 512 + p.val; omega
  rw [hq]
  exact v_tile_eq (iblk0 V c 0 t) (iblk0 V c 3 t) (iblk0 V c 6 t) (iblk0 V c 9 t) _ _ _ _ p q _ q
    (fun d => rows_read V c t p d _ hr) (fun d => weights_read3 V c t d q) (row_read6 V c t q) (row_read9 V c t q)

/-- An index of the result array lies in point `t`'s tile iff each coordinate lies in the tile's range on its axis. -/
theorem mem_tile_v (t : Fin cfg0.N) (i : S4096x1024.Idx) :
    i ∈ ((cfg0.win 12).blk t).view.set ↔ ∀ a : Fin 2, win0_12.index t a * S512x1024.size a ≤ (i a).val ∧ (i a).val < win0_12.index t a * S512x1024.size a + S512x1024.size a := by
  show i ∈ ((View.whole main_v22_2).slice (win0_12.rect t)).set ↔ _
  rw [View.set_slice_whole, Rect.mem_set_unit]
  exact Iff.rfl

/-- The eight row tiles fill the array: row `r` lies in the tile of point `r / 512`. -/
theorem tiles_cover_v (i : S4096x1024.Idx) :
    ∃ t : Fin cfg0.N, (cfg0.win 12).flush t = true ∧ i ∈ ((cfg0.win 12).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := (out_index t).2.2
  refine ⟨t, flush0_12 t, ?_⟩
  rw [mem_tile_v]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 1024 ≤ (i 1).val ∧ (i 1).val < win0_12.index t (1 : Fin 2) * 1024 + 1024; omega

/-- The layer's result array after the region. -/
theorem region0_v (c : Dev nD) :
    (Gen.dat0 (F := Ideal) V c).arrAt 12 cfg0.N = fun i =>
      Cert.ProxyAttn.projK (fun r d => V c main_v21 (ix2 r d)) (fun d o => V c main_v8 (ix2 d o))
        (fun o => V c main_v17 (ix2 (0 : Fin 1) o)) (fun o => V c main_v20 (ix2 (0 : Fin 1) o)) (i 0) (i 1) :=
  (dat0 (F := Ideal) V c).arrAt_eq_of_cover 12 _ (fun t _ => flushed_v V c t) tiles_cover_v

end Cert.KernelIdeal.Qkv

end
-- ==== Proof.QkvRegion.lean ====
import proofs.«109146_j78245714199328_1_alg».proof.Proof.QkvQ
import proofs.«109146_j78245714199328_1_alg».proof.Proof.QkvK
import proofs.«109146_j78245714199328_1_alg».proof.Proof.QkvV

/-!
# The three proxy layers' result arrays after the first region

The region leaves, in its three result arrays, the query layer and the key layer (each with its last tanh) and the
value layer of the flat activations, each against its activated transposed weights, their squared row norms and its
gains as the region finds them: `Cert.KernelIdeal.Qkv.region0_q`, `region0_k`, `region0_v`, proved one module each
and gathered here.
-/
-- ==== Proof.AttnDefs.lean ====
import Idealize.ShloMosaic.Lib.ValueLayout
import Idealize.ShloMosaic.PureOps.Ideal.Laws
import proofs.«109146_j78245714199328_1_alg».proof.Proof.Spec

/-!
# One query row against all the keys

Within a head, the attention of query row `t` uses the query array only through that one row: its squared norm and its
inner products with the 2048 key rows. Here the logits, and the weighted sum of the value rows, are written as
functions of ONE query row `u : Fin 64 → EReal`; the specification's `attend q k v t d` is that function at `u = q t`.
A program that holds only 512 of the 2048 query rows at a time therefore computes the same entries.
-/

noncomputable section

namespace Cert.KernelIdeal.Attn

open Idealize.ShloMosaic Cert.ProxyAttn
open scoped BigOperators

/-- The logit of one query row `u` against key row `s`. -/
def logitRow (u : Fin 64 → EReal) (k : Fin 2048 → Fin 64 → EReal) (s : Fin 2048) : EReal :=
  Ideal.div (-(dist (∑ e : Fin 64, u e * u e) (∑ e : Fin 64, k s e * k s e) (∑ e : Fin 64, u e * k s e))) c80

/-- One query row's softmax-weighted sum of the value rows, at column `d`. -/
def attendRow (u : Fin 64 → EReal) (k v : Fin 2048 → Fin 64 → EReal) (d : Fin 64) : EReal :=
  ∑ s : Fin 2048, soft (logitRow u k) s * v s d

/-- The specification's head attention at row `t` is the one-row form at the query's row `t`. -/
theorem attend_eq_row (q k v : Fin 2048 → Fin 64 → EReal) (t : Fin 2048) (d : Fin 64) :
    attend q k v t d = attendRow (q t) k v d := rfl

end Cert.KernelIdeal.Attn

end
-- ==== Proof.AttnSoft.lean ====
import proofs.«109146_j78245714199328_1_alg».proof.Proof.AttnDefs
import proofs.«109146_j78245714199328_1_alg».proof.Proof.LibTileLayout

/-!
# A softmax along the rows of a [512, 2048] array of logits, read at an index

The row maximum (a fold of `max` from minus infinity, joined once more with minus infinity) is stood up as a column and
spread back over the row; each entry minus its row's maximum is exponentiated; the exponentials are summed along each
row, the sums stood up as a column and spread back; the quotient at `(p, s)` is the specification's `soft` of row `p` at `s`.
-/

noncomputable section

namespace Cert.KernelIdeal.Attn

open Idealize.ShloMosaic Idealize.ShloMosaic.ValueIdx Cert.ProxyAttn Cert.TileLayout
open scoped BigOperators

/-- A float literal's value at the extended reals, however the instance's field is spelt. -/
theorem ofBits_eq (φ : FTy) (b : BitVec φ.bits) : FloatOps.ofBits (F := Ideal) φ b = Ideal.ofBits φ b := rfl

/-- The maximum of an `[a, b]` array along axis 1, folded from the accumulator's value, is at `p` the fold over row `p`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  show (Finset.univ : Finset (Fin b)).fold max (Ideal.ofBits φ acc) (fun q => src (h.lift (ix1 p) q)) = _
  refine congrArg (fun f => Finset.fold max (Ideal.ofBits φ acc) f Finset.univ) (funext fun q => congrArg src ?_)
  funext c
  refine Fin.ext ?_
  match c with
  | ⟨0, _⟩ => rfl
  | ⟨1, _⟩ => rfl

section Rows

variable (hr : (⟨2, ![512, 2048]⟩ : Shape).Reduces [1] ⟨1, ![512]⟩)
  (hc : (⟨1, ![512]⟩ : Shape).ShapeCasts ⟨2, ![512, 1]⟩)
  (hb : (⟨2, ![512, 1]⟩ : Shape).Broadcasts ⟨2, ![512, 2048]⟩)
  (hφ : FKind.Formats .f32)
  (hm : (0xFF800000#32 : BitVec (FTy.bits .f32)) = FKind.maximumf.neutral .f32 hφ)
  (ha : (0x00000000#32 : BitVec (FTy.bits .f32)) = FKind.add.neutral .f32 hφ)

/-- A vector of 512 row statistics stood up as a column and spread over the 2048 entries of each row. -/
def spread (v : FVec Ideal ⟨1, ![512]⟩ .f32) : FVec Ideal ⟨2, ![512, 2048]⟩ .f32 :=
  broadcastTo ⟨2, ![512, 2048]⟩ (shapeCast ⟨2, ![512, 1]⟩ v hc) hb

theorem spread_apply (v : FVec Ideal ⟨1, ![512]⟩ .f32) (p : Fin 512) (s : Fin 2048) :
    spread hc hb v (ix2 p s) = v (ix1 p) := by
  unfold spread
  rw [broadcastTo_a1_ab_apply, shapeCast_a_a1_apply]

/-- Each logit minus its row's maximum, exponentiated. -/
def shifted (l : FVec Ideal ⟨2, ![512, 2048]⟩ .f32) : FVec Ideal ⟨2, ![512, 2048]⟩ .f32 :=
  exp (subf l (spread hc hb (maximumf (broadcast ⟨1, ![512]⟩ (Scalar.ofBits (F := Ideal) .f32 0xFF800000#32))
    (multiReduction .maximumf [1] ⟨1, ![512]⟩ l 0xFF800000#32 hr hφ hm))))

theorem shifted_apply (l : FVec Ideal ⟨2, ![512, 2048]⟩ .f32) (p : Fin 512) (s : Fin 2048) :
    shifted hr hc hb hφ hm l (ix2 p s) = ex (fun s' => l (ix2 p s')) s := by
  unfold shifted ex rowMax
  show Ideal.exp (l (ix2 p s) - spread hc hb _ (ix2 p s)) = Ideal.exp (l (ix2 p s) - _)
  refine congrArg (fun z => Ideal.exp (l (ix2 p s) - z)) ?_
  rw [spread_apply, maximumf_apply, broadcast_apply, max_axis1_apply, ofBits_eq]

/-- The softmax along rows: the shifted exponentials over their row sums. -/
def softRows (l : FVec Ideal ⟨2, ![512, 2048]⟩ .f32) : FVec Ideal ⟨2, ![512, 2048]⟩ .f32 :=
  divf (shifted hr hc hb hφ hm l) (spread hc hb
    (multiReduction .add [1] ⟨1, ![512]⟩ (shifted hr hc hb hφ hm l) 0x00000000#32 hr hφ ha))

theorem softRows_apply (l : FVec Ideal ⟨2, ![512, 2048]⟩ .f32) (p : Fin 512) (s : Fin 2048) :
    softRows hr hc hb hφ hm ha l (ix2 p s) = soft (fun s' => l (ix2 p s')) s := by
  unfold softRows soft
  show Ideal.div (shifted hr hc hb hφ hm l (ix2 p s)) (spread hc hb _ (ix2 p s)) = _
  rw [spread_apply, sum_axis1_apply, shifted_apply]
  refine congrArg _ (Finset.sum_congr rfl fun s' _ => ?_)
  exact shifted_apply hr hc hb hφ hm l p s'

end Rows

end Cert.KernelIdeal.Attn

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.AttnLogit.lean ====
import proofs.«109146_j78245714199328_1_alg».proof.Proof.AttnDefs
import proofs.«109146_j78245714199328_1_alg».proof.Proof.LibTileLayout
import proofs.«109146_j78245714199328_1_alg».proof.Proof.LibDotRows

/-!
# The logits of 512 query rows against 2048 key rows, read at an index

From a block `[1, 512, 64]` of query rows and a block `[1, 2048, 64]` of key rows (their leading unit axis dropped):
the queries' squared row norms as a column spread along the rows, the keys' squared row norms as a column turned into a
row and spread down the columns, the rows-with-rows product of the two blocks, and from these three the clipped squared
distance, negated and divided by 80. Entry `(p, s)` depends on query row `p` and key row `s` only.
-/

noncomputable section

namespace Cert.KernelIdeal.Attn

open Idealize.ShloMosaic Idealize.ShloMosaic.ValueIdx Cert.ProxyAttn Cert.TileLayout
open scoped BigOperators

/-- A scalar float literal's value at the extended reals. -/
theorem scalar_ofBits_eq (φ : FTy) (b : BitVec φ.bits) : Scalar.ofBits (F := Ideal) φ b = Ideal.ofBits φ b := rfl

/-- The zero word minus `x` is `-x`. -/
theorem zero_word_sub (x : EReal) : Ideal.ofBits .f32 0x00000000#32 - x = -x := by
  rw [Ideal.ofBits_zero_f32, zero_sub]

section Logits

variable (hq : (⟨3, ![1, 512, 64]⟩ : Shape).ShapeCasts ⟨2, ![512, 64]⟩)
  (hk : (⟨3, ![1, 2048, 64]⟩ : Shape).ShapeCasts ⟨2, ![2048, 64]⟩)
  (hbits : FTy.bits .bf16 < FTy.bits .f32)
  (hrq : (⟨2, ![512, 64]⟩ : Shape).Reduces [1] ⟨1, ![512]⟩)
  (hrk : (⟨2, ![2048, 64]⟩ : Shape).Reduces [1] ⟨1, ![2048]⟩)
  (hcq : (⟨1, ![512]⟩ : Shape).ShapeCasts ⟨2, ![512, 1]⟩)
  (hck : (⟨1, ![2048]⟩ : Shape).ShapeCasts ⟨2, ![2048, 1]⟩)
  (ht : (⟨2, ![2048, 1]⟩ : Shape).Transposes [1, 0] ⟨2, ![1, 2048]⟩)
  (hbq : (⟨2, ![512, 1]⟩ : Shape).Broadcasts ⟨2, ![512, 2048]⟩)
  (hbk : (⟨2, ![1, 2048]⟩ : Shape).Broadcasts ⟨2, ![512, 2048]⟩)
  (hφ : FKind.Formats .f32)
  (ha : (0x00000000#32 : BitVec (FTy.bits .f32)) = FKind.add.neutral .f32 hφ)
  (D : DotDims ⟨2, ![512, 64]⟩ ⟨2, ![2048, 64]⟩ ⟨2, ![512, 2048]⟩) (hD : LibDotRows.RowsRows D)

/-- The query block without its leading unit axis. -/
def qRows (x0 : Vec Ideal ⟨3, ![1, 512, 64]⟩ .bf16) : FVec Ideal ⟨2, ![512, 64]⟩ .bf16 :=
  shapeCast ⟨2, ![512, 64]⟩ x0 hq

/-- The key block without its leading unit axis. -/
def kRows (x1 : Vec Ideal ⟨3, ![1, 2048, 64]⟩ .bf16) : FVec Ideal ⟨2, ![2048, 64]⟩ .bf16 :=
  shapeCast ⟨2, ![2048, 64]⟩ x1 hk

theorem qRows_apply (x0 : Vec Ideal ⟨3, ![1, 512, 64]⟩ .bf16) (p : Fin 512) (e : Fin 64) :
    qRows hq x0 (ix2 p e) = x0 (ix3 (0 : Fin 1) p e) := by
  unfold qRows
  exact shapeCast_1ab_ab_apply x0 hq p e

theorem kRows_apply (x1 : Vec Ideal ⟨3, ![1, 2048, 64]⟩ .bf16) (s : Fin 2048) (e : Fin 64) :
    kRows hk x1 (ix2 s e) = x1 (ix3 (0 : Fin 1) s e) := by
  unfold kRows
  exact shapeCast_1ab_ab_apply x1 hk s e

/-- The queries' squared row norms, one per row, spread along the 2048 columns. -/
def qNorms (x0 : Vec Ideal ⟨3, ![1, 512, 64]⟩ .bf16) : FVec Ideal ⟨2, ![512, 2048]⟩ .f32 :=
  broadcastTo ⟨2, ![512, 2048]⟩ (shapeCast ⟨2, ![512, 1]⟩
    (multiReduction .add [1] ⟨1, ![512]⟩ (mulf (extf .f32 (qRows hq x0) hbits) (extf .f32 (qRows hq x0) hbits))
      0x00000000#32 hrq hφ ha) hcq) hbq

theorem qNorms_apply (x0 : Vec Ideal ⟨3, ![1, 512, 64]⟩ .bf16) (p : Fin 512) (s : Fin 2048) :
    qNorms hq hbits hrq hcq hbq hφ ha x0 (ix2 p s)
      = ∑ e : Fin 64, x0 (ix3 (0 : Fin 1) p e) * x0 (ix3 (0 : Fin 1) p e) := by
  unfold qNorms
  rw [broadcastTo_a1_ab_apply, shapeCast_a_a1_apply, sum_axis1_apply]
  refine Finset.sum_congr rfl fun e _ => ?_
  show qRows hq x0 (ix2 p e) * qRows hq x0 (ix2 p e) = _
  rw [qRows_apply]

/-- The keys' squared row norms, one per key row, laid as a row and spread down the 512 rows. -/
def kNorms (x1 : Vec Ideal ⟨3, ![1, 2048, 64]⟩ .bf16) : FVec Ideal ⟨2, ![512, 2048]⟩ .f32 :=
  broadcastTo ⟨2, ![512, 2048]⟩ (transpose ⟨2, ![1, 2048]⟩ [1, 0] (shapeCast ⟨2, ![2048, 1]⟩
    (multiReduction .add [1] ⟨1, ![2048]⟩ (mulf (extf .f32 (kRows hk x1) hbits) (extf .f32 (kRows hk x1) hbits))
      0x00000000#32 hrk hφ ha) hck) ht) hbk

theorem kNorms_apply (x1 : Vec Ideal ⟨3, ![1, 2048, 64]⟩ .bf16) (p : Fin 512) (s : Fin 2048) :
    kNorms hk hbits hrk hck ht hbk hφ ha x1 (ix2 p s)
      = ∑ e : Fin 64, x1 (ix3 (0 : Fin 1) s e) * x1 (ix3 (0 : Fin 1) s e) := by
  unfold kNorms
  rw [broadcastTo_1b_ab_apply, transpose_ix2_apply, shapeCast_a_a1_apply, sum_axis1_apply]
  refine Finset.sum_congr rfl fun e _ => ?_
  show kRows hk x1 (ix2 s e) * kRows hk x1 (ix2 s e) = _
  rw [kRows_apply]

/-- The inner products of every query row with every key row. -/
def qk (x0 : Vec Ideal ⟨3, ![1, 512, 64]⟩ .bf16) (x1 : Vec Ideal ⟨3, ![1, 2048, 64]⟩ .bf16) :
    FVec Ideal ⟨2, ![512, 2048]⟩ .f32 :=
  matmul D none (qRows hq x0) (kRows hk x1) (constant ⟨2, ![512, 2048]⟩ .f32 0x00000000#32)

include hD in
theorem qk_apply (x0 : Vec Ideal ⟨3, ![1, 512, 64]⟩ .bf16) (x1 : Vec Ideal ⟨3, ![1, 2048, 64]⟩ .bf16)
    (p : Fin 512) (s : Fin 2048) :
    qk hq hk D x0 x1 (ix2 p s) = ∑ e : Fin 64, x0 (ix3 (0 : Fin 1) p e) * x1 (ix3 (0 : Fin 1) s e) := by
  unfold qk
  refine (LibDotRows.matmul_zero_apply D hD none (qRows hq x0) (kRows hk x1) p s).trans ?_
  refine Finset.sum_congr rfl fun e _ => ?_
  rw [qRows_apply, kRows_apply]

/-- The logits: minus the clipped squared distance, over 80. -/
def logits (x0 : Vec Ideal ⟨3, ![1, 512, 64]⟩ .bf16) (x1 : Vec Ideal ⟨3, ![1, 2048, 64]⟩ .bf16) :
    FVec Ideal ⟨2, ![512, 2048]⟩ .f32 :=
  divf (subf (broadcast ⟨2, ![512, 2048]⟩ (Scalar.ofBits (F := Ideal) .f32 0x00000000#32))
      (maximumf (broadcast ⟨2, ![512, 2048]⟩ (Scalar.ofBits (F := Ideal) .f32 0x00000000#32))
        (subf (addf (qNorms hq hbits hrq hcq hbq hφ ha x0) (kNorms hk hbits hrk hck ht hbk hφ ha x1))
          (mulf (broadcast ⟨2, ![512, 2048]⟩ (Scalar.ofBits (F := Ideal) .f32 0x40000000#32)) (qk hq hk D x0 x1)))))
    (broadcast ⟨2, ![512, 2048]⟩ (Scalar.ofBits (F := Ideal) .f32 0x42A00000#32))

include hD in
theorem logits_apply (x0 : Vec Ideal ⟨3, ![1, 512, 64]⟩ .bf16) (x1 : Vec Ideal ⟨3, ![1, 2048, 64]⟩ .bf16)
    (p : Fin 512) (s : Fin 2048) :
    logits hq hk hbits hrq hrk hcq hck ht hbq hbk hφ ha D x0 x1 (ix2 p s)
      = logitRow (fun e => x0 (ix3 (0 : Fin 1) p e)) (fun s' e => x1 (ix3 (0 : Fin 1) s' e)) s := by
  unfold logits logitRow ProxyAttn.dist
  rw [divf_apply, subf_apply, maximumf_apply, subf_apply, addf_apply, mulf_apply,
    broadcast_apply, broadcast_apply, broadcast_apply, scalar_ofBits_eq, scalar_ofBits_eq, scalar_ofBits_eq,
    qNorms_apply, kNorms_apply, qk_apply hq hk D hD, zero_word_sub]

end Logits

end Cert.KernelIdeal.Attn

end
-- ==== Proof.AttnPay.lean ====
import proofs.«109146_j78245714199328_1_alg».proof.Proof.AttnSoft
import proofs.«109146_j78245714199328_1_alg».proof.Proof.AttnLogit
import proofs.«109146_j78245714199328_1_alg».proof.Proof.LibPlainDot
import proofs.«109146_j78245714199328_1_alg».proof.Proof.Gen.KernelIdeal.Skeleton

/-!
# What the attention body stores, entry by entry

The body's one store holds, at `(0, p, d)`, the product of the softmax weights of query row `p` with column `d` of the
value block: the sum over the 2048 key rows `s` of `soft (logits of row p) s · v s d`. The weights are the row softmax of
the logits, which depend on query row `p` and the key rows only; so the entry is the one-row attention `attendRow` of
query row `p` of the block against the whole key and value blocks.
-/

noncomputable section

namespace Cert.KernelIdeal.Attn

open Cert.KernelIdeal Cert.KernelIdeal.Gen Idealize.ShloMosaic Idealize.ShloMosaic.ValueIdx Cert.ProxyAttn
open scoped BigOperators

/-- The value block without its leading unit axis. -/
theorem pay2_apply (x2 : Vec Ideal S1x2048x64 .bf16) (s : Fin 2048) (d : Fin 64) :
    Gen.k1_pay2 (F := Ideal) x2 (ix2 s d) = x2 (ix3 (0 : Fin 1) s d) := by
  unfold Gen.k1_pay2
  exact shapeCast_1ab_ab_apply x2 _ s d

/-- The softmax weights: entry `(p, s)` is the softmax of query row `p`'s logits at key row `s`. -/
theorem pay3_apply (x0 : Vec Ideal S1x512x64 .bf16) (x1 : Vec Ideal S1x2048x64 .bf16) (p : Fin 512) (s : Fin 2048) :
    Gen.k1_pay3 (F := Ideal) x0 x1 (ix2 p s)
      = soft (logitRow (fun e => x0 (ix3 (0 : Fin 1) p e)) (fun s' e => x1 (ix3 (0 : Fin 1) s' e))) s := by
  unfold Gen.k1_pay3
  refine (softRows_apply _ _ _ _ _ _ _ p s).trans ?_
  refine congrArg (fun f => soft f s) (funext fun s' => ?_)
  exact logits_apply _ _ _ _ _ _ _ _ _ _ _ _ _ ⟨rfl, rfl, rfl, rfl, rfl, rfl⟩ x0 x1 p s'

/-- The stored block: the weights times the value rows, with the leading unit axis put back. -/
theorem pay1_apply (v5 : FVec Ideal S2048x64 .bf16) (v38 : FVec Ideal S512x2048 .f32) (p : Fin 512) (d : Fin 64) :
    Gen.k1_pay1 (F := Ideal) v5 v38 (ix3 (0 : Fin 1) p d) = ∑ s : Fin 2048, v38 (ix2 p s) * v5 (ix2 s d) := by
  unfold Gen.k1_pay1
  refine (shapeCast_ab_1ab_apply _ _ (0 : Fin 1) p d).trans ?_
  refine (truncf_apply (ψ := .bf16) (φ := .f32) _ Facts₀.bitsLt_bf16_f32 (ix2 p d)).trans ?_
  refine (LibPlainDot.matmul_zero_apply dot_S512x2048_S2048x64_S512x64_1_0_0_1_n_n ⟨rfl, rfl, rfl, rfl, rfl, rfl⟩ none
    (truncf .bf16 v38 Facts₀.bitsLt_bf16_f32) v5 p d).trans ?_
  refine Finset.sum_congr rfl fun s _ => ?_
  rw [truncf_apply]

/-- The body's store at `(0, p, d)`: the one-row attention of query row `p` of the block. -/
theorem payload_apply (x0 : Vec Ideal S1x512x64 .bf16) (x1 x2 : Vec Ideal S1x2048x64 .bf16) (p : Fin 512) (d : Fin 64) :
    Gen.k1_pay1 (F := Ideal) (Gen.k1_pay2 x2) (Gen.k1_pay3 x0 x1) (ix3 (0 : Fin 1) p d)
      = attendRow (fun e => x0 (ix3 (0 : Fin 1) p e)) (fun s e => x1 (ix3 (0 : Fin 1) s e))
          (fun s e => x2 (ix3 (0 : Fin 1) s e)) d := by
  rw [pay1_apply]
  unfold attendRow
  refine Finset.sum_congr rfl fun s _ => ?_
  rw [pay3_apply, pay2_apply]

end Cert.KernelIdeal.Attn

end
-- ==== Proof.AttnPoint.lean ====
import proofs.«109146_j78245714199328_1_alg».proof.Proof.AttnPay

/-!
# One grid point of the attention kernel, against whole arrays

At a grid point the body holds rows `r·512 … r·512 + 511` of head `b` of the query array, and all 2048 rows of head `b`
of the key and value arrays. What it stores at `(0, p, d)` is then the specification's attention of the three whole
arrays at head `b`, row `r·512 + p`, column `d`: that entry reads the query array in that one row only.
-/

noncomputable section

namespace Cert.KernelIdeal.Attn

open Cert.KernelIdeal Cert.KernelIdeal.Gen Idealize.ShloMosaic Idealize.ShloMosaic.ValueIdx Cert.ProxyAttn
open scoped BigOperators

theorem point_eq (A0 A1 A2 : (⟨3, ![32, 2048, 64]⟩ : Shape).Idx → EReal)
    (x0 : Vec Ideal S1x512x64 .bf16) (x1 x2 : Vec Ideal S1x2048x64 .bf16) (b : Fin 32) (r : Fin 4)
    (h0 : ∀ (p : Fin 512) (e : Fin 64),
      x0 (ix3 (0 : Fin 1) p e) = A0 (ix3 b (⟨r.val * 512 + p.val, by omega⟩ : Fin 2048) e))
    (h1 : ∀ (s : Fin 2048) (e : Fin 64), x1 (ix3 (0 : Fin 1) s e) = A1 (ix3 b s e))
    (h2 : ∀ (s : Fin 2048) (e : Fin 64), x2 (ix3 (0 : Fin 1) s e) = A2 (ix3 b s e))
    (p : Fin 512) (d : Fin 64) :
    Gen.k1_pay1 (F := Ideal) (Gen.k1_pay2 x2) (Gen.k1_pay3 x0 x1) (ix3 (0 : Fin 1) p d)
      = attn (fun bh t e => A0 (ix3 bh t e)) (fun bh t e => A1 (ix3 bh t e)) (fun bh t e => A2 (ix3 bh t e))
          b (⟨r.val * 512 + p.val, by omega⟩ : Fin 2048) d := by
  rw [payload_apply]
  unfold attn
  rw [attend_eq_row]
  simp only [h0, h1, h2]

end Cert.KernelIdeal.Attn

end
-- ==== Proof.AttnFlush.lean ====
import proofs.«109146_j78245714199328_1_alg».proof.Proof.AttnPoint
import proofs.«109146_j78245714199328_1_alg».proof.Proof.Gen.KernelIdeal.Frame
import Idealize.ShloMosaic.Lib.Pipeline.Value

/-!
# What each grid point of the attention kernel writes back

The grid is 32 heads by 4 row tiles. At point `(b, r)` the query window holds block `(b, r, 0)` of the query array in
blocks `[1, 512, 64]`, the key and value windows hold block `(b, 0, 0)` of their arrays in blocks `[1, 2048, 64]`, and the
output window writes block `(b, r, 0)` of the result in blocks `[1, 512, 64]`. An element of a block sits in its array, on
each axis, at the block index times the block size plus its coordinate inside the block. So what the point writes back is
that block of ONE function of the three arrays as the region finds them: the head attention at every index.
-/

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.ProxyAttn
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl

/-- The head attention of the query, key and value arrays as the region finds them, at every index of the result. -/
abbrev headAttn (c : Dev nD) : S32x2048x64.Idx → EReal := fun i =>
  attn (fun bh t d => V c main_v25 (ix3 bh t d)) (fun bh t d => V c main_v28 (ix3 bh t d))
    (fun bh t d => V c main_v31 (ix3 bh t d)) (i 0) (i 1) (i 2)

/-- The four windows' block indices over the grid: the query and output windows move together over heads and row tiles;
    the key and value windows follow the head only; the last axis is never cut. -/
theorem block_indices : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0
    ∧ win1_1.index t (2 : Fin 3) = 0
    ∧ win1_2.index t (0 : Fin 3) = win1_3.index t (0 : Fin 3) ∧ win1_2.index t (1 : Fin 3) = 0
    ∧ win1_2.index t (2 : Fin 3) = 0
    ∧ win1_3.index t (0 : Fin 3) ≤ 31 ∧ win1_3.index t (1 : Fin 3) ≤ 3 ∧ win1_3.index t (2 : Fin 3) = 0 :=
  (by decide +kernel : ∀ t : Fin grid1.N, _)

/-- What point `t` writes back is block `t` of the head attention of the three arrays. -/
theorem flushed_eq (c : Dev nD) (t : Fin cfg1.N) :
    (Gen.dat1 (F := Ideal) V c).flushed 3 t = ((cfg1.win 3).blk t).view.read (Elt Ideal) (headAttn V c) := by
  show (cfg1.win 3).cut (grid1.coords t) ((Gen.dat1 (F := Ideal) V c).after 3 t) = _
  rw [Gen.after1_3]
  unfold Gen.out1_3
  rw [View.canon_unit_zero zeros3]
  simp only [View.ld_unit_zero (S := S1x512x64) zeros3, View.ld_unit_zero (S := S1x2048x64) zeros3]
  obtain ⟨e00, e01, e02, e10, e11, e12, e20, e21, e22, b0, b1, e32⟩ := block_indices t
  have hb : win1_3.index t (0 : Fin 3) < 32 := by omega
  have hr : win1_3.index t (1 : Fin 3) < 4 := by omega
  funext j
  obtain ⟨p, d, rfl⟩ : ∃ (p : Fin 512) (d : Fin 64), j = ix3 (0 : Fin 1) p d := ⟨j 1, j 2, by
    funext a
    match a with
    | ⟨0, _⟩ => exact Fin.ext (by have h : (j 0).val < 1 := (j 0).isLt; show (j 0).val = 0; omega)
    | ⟨1, _⟩ => rfl
    | ⟨2, _⟩ => rfl⟩
  show Gen.k1_pay1 (F := Ideal) (Gen.k1_pay2 (iblk1 V c 2 t)) (Gen.k1_pay3 (iblk1 V c 0 t) (iblk1 V c 1 t)) (ix3 (0 : Fin 1) p d)
    = headAttn V c (((cfg1.win 3).blk t).view.emb (ix3 (0 : Fin 1) p d))
  have hE : ((cfg1.win 3).blk t).view.emb (ix3 (0 : Fin 1) p d)
      = ix3 (⟨win1_3.index t (0 : Fin 3), hb⟩ : Fin 32)
          (⟨win1_3.index t (1 : Fin 3) * 512 + p.val, by omega⟩ : Fin 2048) d := by
    funext a
    refine Fin.ext ?_
    match a with
    | ⟨0, _⟩ => show win1_3.index t (0 : Fin 3) * 1 + 1 * 0 = win1_3.index t (0 : Fin 3); omega
    | ⟨1, _⟩ => show win1_3.index t (1 : Fin 3) * 512 + 1 * p.val = win1_3.index t (1 : Fin 3) * 512 + p.val; omega
    | ⟨2, _⟩ => show win1_3.index t (2 : Fin 3) * 64 + 1 * d.val = d.val; omega
  rw [hE]
  refine point_eq (V c main_v25) (V c main_v28) (V c main_v31) (iblk1 V c 0 t) (iblk1 V c 1 t) (iblk1 V c 2 t)
    ⟨win1_3.index t (0 : Fin 3), hb⟩ ⟨win1_3.index t (1 : Fin 3), hr⟩ ?_ ?_ ?_ p d
  · intro p e
    show V c main_v25 (((cfg1.win 0).blk t).view.emb (ix3 (0 : Fin 1) p e)) = _
    refine congrArg (V c main_v25) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * p.val = win1_3.index t (1 : Fin 3) * 512 + p.val; omega
    | ⟨2, _⟩ => show win1_0.index t (2 : Fin 3) * 64 + 1 * e.val = e.val; omega
  · intro s e
    show V c main_v28 (((cfg1.win 1).blk t).view.emb (ix3 (0 : Fin 1) s e)) = _
    refine congrArg (V c main_v28) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * s.val = s.val; omega
    | ⟨2, _⟩ => show win1_1.index t (2 : Fin 3) * 64 + 1 * e.val = e.val; omega
  · intro s e
    show V c main_v31 (((cfg1.win 2).blk t).view.emb (ix3 (0 : Fin 1) s e)) = _
    refine congrArg (V c main_v31) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * s.val = s.val; omega
    | ⟨2, _⟩ => show win1_2.index t (2 : Fin 3) * 64 + 1 * e.val = e.val; omega

end Cert.KernelIdeal.Attn

end
-- ==== Proof.AttnRegion.lean ====
import proofs.«109146_j78245714199328_1_alg».proof.Proof.AttnFlush

/-!
# The attention region's result array

The output window's blocks `[1, 512, 64]` at block indices `(b, r, 0)`, `b < 32`, `r < 4`, tile the `[32, 2048, 64]` result:
index `(bh, t, d)` lies in the block of the point with block index `(bh, t / 512, 0)`. Every point writes back its block
of the head attention of the query, key and value arrays as the region finds them, so after the region the result array
holds that function at every index.
-/

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.ProxyAttn
open Idealize.ShloMosaic.Pipeline (Dat)

variable (V : (c : Dev nD) → (b : Ref sig .tc) → Buf (Elt Ideal) ((c : Thread nD τ).loc b))

/-- An index of the result lies in point `t`'s block iff each coordinate is in the block's range on its axis. -/
theorem mem_block (t : Fin cfg1.N) (i : S32x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v32).slice (win1_3.rect t)).set ↔ _
  rw [View.set_slice_whole, Rect.mem_set_unit]
  exact Iff.rfl

/-- Every block index `(q0, q1, 0)` with `q0 < 32`, `q1 < 4` is some grid point's. -/
theorem block_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

/-- Every index of the result is in some flushing point's block: row `t` of head `bh` in the block `(bh, t / 512, 0)`. -/
theorem covered (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := block_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_block]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-- The result array after the region: the head attention of the query, key and value arrays at every index. -/
theorem region1 (c : Dev nD) :
    (Gen.dat1 (F := Ideal) V c).arrAt 3 cfg1.N = fun i =>
      Cert.ProxyAttn.attn (fun bh t d => V c main_v25 (ix3 bh t d)) (fun bh t d => V c main_v28 (ix3 bh t d))
        (fun bh t d => V c main_v31 (ix3 bh t d)) (i 0) (i 1) (i 2) :=
  (Gen.dat1 (F := Ideal) V c).arrAt_eq_of_cover 3 (headAttn V c) (fun t _ => flushed_eq V c t) covered

end Cert.KernelIdeal.Attn

end
-- ==== Proof.OutProjPay.lean ====
import proofs.«109146_j78245714199328_1_alg».proof.Proof.Gen.KernelIdeal.Skeleton
import proofs.«109146_j78245714199328_1_alg».proof.Proof.LibPlainDot
import Idealize.ShloMosaic.Lib.Pipeline.Value

/-!
# The output projection's tile at an index

One grid point of the output projection holds 512 rows of the attended activations and the whole
transposed weight matrix, and writes their rows-by-columns product into a zero accumulator.  Entry
`(p, o)` of the tile is therefore the plain sum over the 1024 shared columns of row `p` of the tile of
activations against column `o` of the weights.
-/

noncomputable section

namespace Cert.KernelIdeal.OutProj

open Cert.KernelIdeal Cert.KernelIdeal.Gen Idealize.ShloMosaic Idealize.ShloMosaic.ValueIdx
open scoped BigOperators

/-- The tile's entry `(p, o)`: the reshapes are onto the same shape, so only the product remains. -/
theorem tile_apply (x0 : FVec Ideal S512x1024 .bf16) (x1 : FVec Ideal S1024x1024 .bf16) (p : Fin 512) (o : Fin 1024) :
    k2_pay1 (F := Ideal) x0 x1 (ix2 p o) = ∑ k : Fin 1024, x0 (ix2 p k) * x1 (ix2 k o) := by
  unfold k2_pay1
  rw [shapeCast_self, shapeCast_self]
  exact Cert.LibPlainDot.matmul_zero_apply _ ⟨rfl, rfl, rfl, rfl, rfl, rfl⟩ none x0 x1 p o

end Cert.KernelIdeal.OutProj

end
-- ==== Proof.OutProjRegion.lean ====
import proofs.«109146_j78245714199328_1_alg».proof.Proof.Gen.KernelIdeal.Frame
import proofs.«109146_j78245714199328_1_alg».proof.Proof.Spec
import proofs.«109146_j78245714199328_1_alg».proof.Proof.OutProjPay
import Idealize.ShloMosaic.Lib.Pipeline.Value

/-!
# The output projection, from row tiles to the whole array

The grid has eight points; point `t` holds rows `512 t … 512 t + 511` of the attended activations and the whole
transposed weight matrix, and writes rows `512 t … 512 t + 511` of the result.  Entry `(p, o)` of what point `t`
writes depends on row `512 t + p` of the activations and on column `o` of the weights only, so it is entry
`(512 t + p, o)` of the rows-by-columns product of the two whole arrays; the eight row tiles fill the 4096 rows
(row `r` lies in the tile of point `r / 512`), so the array ends holding that product.
-/

noncomputable section

namespace Cert.KernelIdeal.OutProj

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The two zero offsets of a whole-tile access, as the constant function. -/
theorem offsets_zero : (![0, 0] : Fin 2 → Nat) = fun _ => 0 := funext fun a => by fin_cases a <;> rfl

/-- A tile's entry from the whole arrays: if row `p` of the tile of activations is row `r` of `A` and column `q`
    of the tile of weights is column `o` of `W`, entry `(p, q)` of the tile's product is entry `(r, o)` of `A · W`. -/
theorem tile_eq (x0 : FVec Ideal S512x1024 .bf16) (x1 : FVec Ideal S1024x1024 .bf16)
    (A : Fin 4096 → Fin 1024 → EReal) (W : Fin 1024 → Fin 1024 → EReal) (p : Fin 512) (q : Fin 1024) (r : Fin 4096) (o : Fin 1024)
    (hA : ∀ k : Fin 1024, x0 (ix2 p k) = A r k) (hW : ∀ k : Fin 1024, x1 (ix2 k q) = W k o) :
    k2_pay1 (F := Ideal) x0 x1 (ix2 p q) = Cert.ProxyAttn.outK A W r o := by
  rw [tile_apply]
  unfold Cert.ProxyAttn.outK
  exact Finset.sum_congr rfl fun k _ => by rw [hA k, hW k]

/-- The printed index maps over the grid: the tile of activations moves with the tile of results down the rows,
    point `t` at row block `t`; every other block index is zero. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is tile `t` of the product of the two whole arrays as the region finds them. -/
theorem flushed_eq (c : Dev nD) (t : Fin cfg2.N) :
    (dat2 (F := Ideal) V c).flushed 2 t = ((cfg2.win 2).blk t).view.read (Elt Ideal)
      (fun i => Cert.ProxyAttn.outK (fun r k => V c main_v35 (ix2 r k)) (fun k o => V c main_v37 (ix2 k o)) (i 0) (i 1)) := by
  show (cfg2.win 2).cut (grid2.coords t) ((dat2 V c).after 2 t) = _
  rw [after2_2]
  unfold out2_2
  rw [View.canon_unit_zero offsets_zero]
  simp only [View.ld_unit_zero (S := S512x1024) offsets_zero, View.ld_unit_zero (S := S1024x1024) offsets_zero]
  obtain ⟨e0, e1, e2, e3, e4, e5⟩ := block_indices t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (ix2 p q)
    = Cert.ProxyAttn.outK (fun r k => V c main_v35 (ix2 r k)) (fun k o => V c main_v37 (ix2 k o))
        ((((cfg2.win 2).blk t).view.emb (ix2 p q)) 0) ((((cfg2.win 2).blk t).view.emb (ix2 p q)) 1)
  refine tile_eq (iblk2 V c 0 t) (iblk2 V c 1 t) (fun r k => V c main_v35 (ix2 r k)) (fun k o => V c main_v37 (ix2 k o)) p q _ _
    (fun k => ?_) (fun k => ?_)
  · show V c main_v35 (((cfg2.win 0).blk t).view.emb (ix2 p k))
      = V c main_v35 (ix2 ((((cfg2.win 2).blk t).view.emb (ix2 p q)) 0) k)
    refine congrArg (V c main_v35) (funext fun a => Fin.ext ?_)
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  · show V c main_v37 (((cfg2.win 1).blk t).view.emb (ix2 k q))
      = V c main_v37 (ix2 k ((((cfg2.win 2).blk t).view.emb (ix2 p q)) 1))
    refine congrArg (V c main_v37) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega

/-- An index of the result array lies in point `t`'s tile iff each coordinate lies in the tile's range on its axis. -/
theorem mem_tile (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v38).slice (win2_2.rect t)).set ↔ _
  rw [View.set_slice_whole, Rect.mem_set_unit]
  exact Iff.rfl

/-- The eight row tiles fill the array: row `r` lies in the tile of point `r / 512`. -/
theorem tiles_cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨e0, e1, e2, e3, e4, e5⟩ := block_indices t
  refine ⟨t, flush2_2 t, ?_⟩
  rw [mem_tile]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The result array after the region: the rows-by-columns product of the attended activations and the transposed
    output weights as the region finds them. -/
theorem region2 (c : Dev nD) :
    (Gen.dat2 (F := Ideal) V c).arrAt 2 cfg2.N = fun i =>
      Cert.ProxyAttn.outK (fun r k => V c main_v35 (ix2 r k)) (fun k o => V c main_v37 (ix2 k o)) (i 0) (i 1) :=
  (dat2 (F := Ideal) V c).arrAt_eq_of_cover 2 _ (fun t _ => flushed_eq V c t) tiles_cover

end Cert.KernelIdeal.OutProj

end
-- ==== Proof.KernelValue.lean ====
/-
  The idealized kernel program's result as ONE function of its eight arguments.  Each kernel's output array is a
  function of the arrays it finds (the three region lemmas); the host operations between the kernels only activate,
  sum and re-lay (the entry lemmas); composing them from the result backwards — the result is the output projection's
  array, whose operand is the attention's output laid flat, whose operands are the three proxy layers cut into heads,
  whose operands are the arguments — gives the specification's whole function.
-/
import proofs.«109146_j78245714199328_1_alg».proof.Proof.Entry0
import proofs.«109146_j78245714199328_1_alg».proof.Proof.Entry12
import proofs.«109146_j78245714199328_1_alg».proof.Proof.QkvRegion
import proofs.«109146_j78245714199328_1_alg».proof.Proof.AttnRegion
import proofs.«109146_j78245714199328_1_alg».proof.Proof.OutProjRegion

noncomputable section

open scoped BigOperators

namespace Cert.KernelIdeal.Whole

open Cert.KernelIdeal Cert.KernelIdeal.Gen Cert.ProxyAttn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first kernel's q output on the flat layout is tanh of the q proxy layer of the arguments. -/
theorem q_flat (c : Dev nD) (r : Fin 4096) (o : Fin 1024) :
    (dat0 (F := Ideal) (V1 m ρ) c).arrAt 10 cfg0.N (ix2 r o)
      = Ideal.tanh (proj (xflat (m ((c : Thread nD τ).loc main_arg0))) (mat (m ((c : Thread nD τ).loc main_arg1))) (gain (m ((c : Thread nD τ).loc main_arg2))) r o) := by
  have hx : (fun r d => V1 (F := Ideal) m ρ c main_v21 (ix2 r d)) = xflat (m ((c : Thread nD τ).loc main_arg0)) :=
    funext fun r => funext fun d => Stretch.entry_x m ρ c r d
  have hw : (fun d o => V1 (F := Ideal) m ρ c main_v4 (ix2 d o)) = fun d o => Ideal.tanh (mat (m ((c : Thread nD τ).loc main_arg1)) o d) :=
    funext fun d => funext fun o => Stretch.entry_wq m ρ c d o
  have hs : (fun o => V1 (F := Ideal) m ρ c main_v11 (ix2 (0 : Fin 1) o))
      = fun o => ∑ d : Fin 1024, Ideal.tanh (mat (m ((c : Thread nD τ).loc main_arg1)) o d) * Ideal.tanh (mat (m ((c : Thread nD τ).loc main_arg1)) o d) :=
    funext fun o => Stretch.entry_sq m ρ c 0 o
  have hg : (fun o => V1 (F := Ideal) m ρ c main_v18 (ix2 (0 : Fin 1) o)) = gain (m ((c : Thread nD τ).loc main_arg2)) :=
    funext fun o => Stretch.entry_gq m ρ c 0 o
  rw [Qkv.region0_q (V1 m ρ) c]
  show Ideal.tanh (projK (fun r d => V1 (F := Ideal) m ρ c main_v21 (ix2 r d)) (fun d o => V1 (F := Ideal) m ρ c main_v4 (ix2 d o))
    (fun o => V1 (F := Ideal) m ρ c main_v11 (ix2 (0 : Fin 1) o)) (fun o => V1 (F := Ideal) m ρ c main_v18 (ix2 (0 : Fin 1) o)) r o) = _
  rw [hx, hw, hs, hg]
  rfl

/-- Likewise k. -/
theorem k_flat (c : Dev nD) (r : Fin 4096) (o : Fin 1024) :
    (dat0 (F := Ideal) (V1 m ρ) c).arrAt 11 cfg0.N (ix2 r o)
      = Ideal.tanh (proj (xflat (m ((c : Thread nD τ).loc main_arg0))) (mat (m ((c : Thread nD τ).loc main_arg3))) (gain (m ((c : Thread nD τ).loc main_arg4))) r o) := by
  have hx : (fun r d => V1 (F := Ideal) m ρ c main_v21 (ix2 r d)) = xflat (m ((c : Thread nD τ).loc main_arg0)) :=
    funext fun r => funext fun d => Stretch.entry_x m ρ c r d
  have hw : (fun d o => V1 (F := Ideal) m ρ c main_v6 (ix2 d o)) = fun d o => Ideal.tanh (mat (m ((c : Thread nD τ).loc main_arg3)) o d) :=
    funext fun d => funext fun o => Stretch.entry_wk m ρ c d o
  have hs : (fun o => V1 (F := Ideal) m ρ c main_v14 (ix2 (0 : Fin 1) o))
      = fun o => ∑ d : Fin 1024, Ideal.tanh (mat (m ((c : Thread nD τ).loc main_arg3)) o d) * Ideal.tanh (mat (m ((c : Thread nD τ).loc main_arg3)) o d) :=
    funext fun o => Stretch.entry_sk m ρ c 0 o
  have hg : (fun o => V1 (F := Ideal) m ρ c main_v19 (ix2 (0 : Fin 1) o)) = gain (m ((c : Thread nD τ).loc main_arg4)) :=
    funext fun o => Stretch.entry_gk m ρ c 0 o
  rw [Qkv.region0_k (V1 m ρ) c]
  show Ideal.tanh (projK (fun r d => V1 (F := Ideal) m ρ c main_v21 (ix2 r d)) (fun d o => V1 (F := Ideal) m ρ c main_v6 (ix2 d o))
    (fun o => V1 (F := Ideal) m ρ c main_v14 (ix2 (0 : Fin 1) o)) (fun o => V1 (F := Ideal) m ρ c main_v19 (ix2 (0 : Fin 1) o)) r o) = _
  rw [hx, hw, hs, hg]
  rfl

/-- And v, which is not passed through tanh. -/
theorem v_flat (c : Dev nD) (r : Fin 4096) (o : Fin 1024) :
    (dat0 (F := Ideal) (V1 m ρ) c).arrAt 12 cfg0.N (ix2 r o)
      = proj (xflat (m ((c : Thread nD τ).loc main_arg0))) (mat (m ((c : Thread nD τ).loc main_arg5))) (gain (m ((c : Thread nD τ).loc main_arg6))) r o := by
  have hx : (fun r d => V1 (F := Ideal) m ρ c main_v21 (ix2 r d)) = xflat (m ((c : Thread nD τ).loc main_arg0)) :=
    funext fun r => funext fun d => Stretch.entry_x m ρ c r d
  have hw : (fun d o => V1 (F := Ideal) m ρ c main_v8 (ix2 d o)) = fun d o => Ideal.tanh (mat (m ((c : Thread nD τ).loc main_arg5)) o d) :=
    funext fun d => funext fun o => Stretch.entry_wv m ρ c d o
  have hs : (fun o => V1 (F := Ideal) m ρ c main_v17 (ix2 (0 : Fin 1) o))
      = fun o => ∑ d : Fin 1024, Ideal.tanh (mat (m ((c : Thread nD τ).loc main_arg5)) o d) * Ideal.tanh (mat (m ((c : Thread nD τ).loc main_arg5)) o d) :=
    funext fun o => Stretch.entry_sv m ρ c 0 o
  have hg : (fun o => V1 (F := Ideal) m ρ c main_v20 (ix2 (0 : Fin 1) o)) = gain (m ((c : Thread nD τ).loc main_arg6)) :=
    funext fun o => Stretch.entry_gv m ρ c 0 o
  rw [Qkv.region0_v (V1 m ρ) c]
  show projK (fun r d => V1 (F := Ideal) m ρ c main_v21 (ix2 r d)) (fun d o => V1 (F := Ideal) m ρ c main_v8 (ix2 d o))
    (fun o => V1 (F := Ideal) m ρ c main_v17 (ix2 (0 : Fin 1) o)) (fun o => V1 (F := Ideal) m ρ c main_v20 (ix2 (0 : Fin 1) o)) r o = _
  rw [hx, hw, hs, hg]
  rfl

/-- The attention kernel's output is the attention of the three layers' heads. -/
theorem attn_out (c : Dev nD) (bh : Fin 32) (t : Fin 2048) (d : Fin 64) :
    (dat1 (F := Ideal) (V3 m ρ) c).arrAt 3 cfg1.N (ix3 bh t d) = attn (heads (fun r o => Ideal.tanh (proj (xflat (m ((c : Thread nD τ).loc main_arg0))) (mat (m ((c : Thread nD τ).loc main_arg1))) (gain (m ((c : Thread nD τ).loc main_arg2))) r o))) (heads (fun r o => Ideal.tanh (proj (xflat (m ((c : Thread nD τ).loc main_arg0))) (mat (m ((c : Thread nD τ).loc main_arg3))) (gain (m ((c : Thread nD τ).loc main_arg4))) r o))) (heads (proj (xflat (m ((c : Thread nD τ).loc main_arg0))) (mat (m ((c : Thread nD τ).loc main_arg5))) (gain (m ((c : Thread nD τ).loc main_arg6))))) bh t d := by
  have hq : (fun bh t d => V3 (F := Ideal) m ρ c main_v25 (ix3 bh t d)) = heads (fun r o => Ideal.tanh (proj (xflat (m ((c : Thread nD τ).loc main_arg0))) (mat (m ((c : Thread nD τ).loc main_arg1))) (gain (m ((c : Thread nD τ).loc main_arg2))) r o)) :=
    funext fun bh => funext fun t => funext fun d => (Stretch.heads_q m ρ c bh t d).trans (q_flat m ρ c _ _)
  have hk : (fun bh t d => V3 (F := Ideal) m ρ c main_v28 (ix3 bh t d)) = heads (fun r o => Ideal.tanh (proj (xflat (m ((c : Thread nD τ).loc main_arg0))) (mat (m ((c : Thread nD τ).loc main_arg3))) (gain (m ((c : Thread nD τ).loc main_arg4))) r o)) :=
    funext fun bh => funext fun t => funext fun d => (Stretch.heads_k m ρ c bh t d).trans (k_flat m ρ c _ _)
  have hv : (fun bh t d => V3 (F := Ideal) m ρ c main_v31 (ix3 bh t d)) = heads (proj (xflat (m ((c : Thread nD τ).loc main_arg0))) (mat (m ((c : Thread nD τ).loc main_arg5))) (gain (m ((c : Thread nD τ).loc main_arg6)))) :=
    funext fun bh => funext fun t => funext fun d => (Stretch.heads_v m ρ c bh t d).trans (v_flat m ρ c _ _)
  rw [Attn.region1 (V3 m ρ) c]
  show attn (fun bh t d => V3 (F := Ideal) m ρ c main_v25 (ix3 bh t d)) (fun bh t d => V3 (F := Ideal) m ρ c main_v28 (ix3 bh t d))
    (fun bh t d => V3 (F := Ideal) m ρ c main_v31 (ix3 bh t d)) bh t d = _
  rw [hq, hk, hv]

/-- THE KERNEL PROGRAM'S RESULT is the specification's function of the eight arguments. -/
theorem value (c : Dev nD) :
    W7 (F := Ideal) m ρ c (Proc.devRef .tc main_v39)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ha : (fun r k => V5 (F := Ideal) m ρ c main_v35 (ix2 r k)) = unheads (attn (heads (fun r o => Ideal.tanh (proj (xflat (m ((c : Thread nD τ).loc main_arg0))) (mat (m ((c : Thread nD τ).loc main_arg1))) (gain (m ((c : Thread nD τ).loc main_arg2))) r o))) (heads (fun r o => Ideal.tanh (proj (xflat (m ((c : Thread nD τ).loc main_arg0))) (mat (m ((c : Thread nD τ).loc main_arg3))) (gain (m ((c : Thread nD τ).loc main_arg4))) r o))) (heads (proj (xflat (m ((c : Thread nD τ).loc main_arg0))) (mat (m ((c : Thread nD τ).loc main_arg5))) (gain (m ((c : Thread nD τ).loc main_arg6)))))) :=
    funext fun r => funext fun k => (Stretch.merged m ρ c r k).trans (attn_out m ρ c _ _ _)
  have hw : (fun k o => V5 (F := Ideal) m ρ c main_v37 (ix2 k o)) = fun k o => mat (m ((c : Thread nD τ).loc main_arg7)) o k :=
    funext fun k => funext fun o => Stretch.entry_wo m ρ c k o
  funext i
  rw [Stretch.result_apply, OutProj.region2 (V5 m ρ) c]
  show outK (fun r k => V5 (F := Ideal) m ρ c main_v35 (ix2 r k)) (fun k o => V5 (F := Ideal) m ρ c main_v37 (ix2 k o)) _ (i 2) = _
  rw [ha, hw]
  rfl

end Cert.KernelIdeal.Whole

end
-- ==== Proof.RefBase.lean ====
/-
  Shared coordinates for reading the reference program: the flat row b·2048 + t of a [2, 2048, ·] array, the head
  index b·16 + h, and the two facts every stage uses — the flat activations at row b·2048 + t are the array's entry
  (b, t, ·), and a sum started from the zero word is the sum.
-/
import proofs.«109146_j78245714199328_1_alg».proof.Proof.Gen.ReferenceIdeal.Read
import proofs.«109146_j78245714199328_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- The flat row b·2048 + t. -/
def flatRow (b : Fin 2) (t : Fin 2048) : Fin 4096 := ⟨b.val * 2048 + t.val, by have := b.isLt; have := t.isLt; omega⟩

/-- The head index b·16 + h. -/
def headIx (b : Fin 2) (h : Fin 16) : Fin 32 := ⟨b.val * 16 + h.val, by have := b.isLt; have := h.isLt; omega⟩

/-- The flat column h·64 + d. -/
def flatCol (h : Fin 16) (d : Fin 64) : Fin 1024 := ⟨h.val * 64 + d.val, by have := h.isLt; have := d.isLt; omega⟩

/-- Row b·2048 + t of the flat activations is the entry (b, t, ·) of the array. -/
theorem xflat_row (x : (⟨3, ![2, 2048, 1024]⟩ : Shape).Idx → EReal) (b : Fin 2) (t : Fin 2048) (d : Fin 1024) :
    xflat x (flatRow b t) d = x (ix3 b t d) := by
  have hb := b.isLt
  have ht := t.isLt
  unfold xflat flatRow
  have e0 : (⟨(b.val * 2048 + t.val) / 2048, by omega⟩ : Fin 2) = b := Fin.ext (by show (b.val * 2048 + t.val) / 2048 = b.val; omega)
  have e1 : (⟨(b.val * 2048 + t.val) % 2048, Nat.mod_lt _ (by norm_num)⟩ : Fin 2048) = t :=
    Fin.ext (by show (b.val * 2048 + t.val) % 2048 = t.val; omega)
  exact congrArg x (by rw [e0, e1])

/-- A sum started from the zero word is the sum. -/
theorem zero_word_add (a : EReal) : Ideal.ofBits .f32 0x00000000#32 + a = a := by
  rw [Ideal.ofBits_zero_f32, zero_add]

/-- The head row of head b·16 + h at t is the flat row b·2048 + t. -/
theorem headRow_headIx (b : Fin 2) (h : Fin 16) (t : Fin 2048) : headRow (headIx b h) t = flatRow b t := by
  have hb := b.isLt
  have hh := h.isLt
  exact Fin.ext (by show (b.val * 16 + h.val) / 16 * 2048 + t.val = b.val * 2048 + t.val; omega)

/-- The head column of head b·16 + h at d is the flat column h·64 + d. -/
theorem headCol_headIx (b : Fin 2) (h : Fin 16) (d : Fin 64) : headCol (headIx b h) d = flatCol h d := by
  have hb := b.isLt
  have hh := h.isLt
  exact Fin.ext (by show (b.val * 16 + h.val) % 16 * 64 + d.val = h.val * 64 + d.val; omega)

end Cert.ReferenceIdeal.RefValue

end
-- ==== Proof.RefLayerQ.lean ====
/-
  The first proxy layer of the reference, read at (b, t, o): the clipped, rescaled and gated squared distance of the
  activated row b·2048 + t of the activations and the activated row o of the weights.
-/
import proofs.«109146_j78245714199328_1_alg».proof.Proof.Gen.ReferenceIdeal.Read
import proofs.«109146_j78245714199328_1_alg».proof.Proof.RefBase

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- The layer before its activation: entry (b, t, o) depends on row (b, t) of the activations, row o of the weights
    and the gain at o. -/
theorem layerQ_pre_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (t : Fin 2048) (o : Fin 1024) :
    val_main_v23 (F := Ideal) x0 x1 x2 (ix3 b t o) = proj (xflat x0) (mat x1) (gain x2) (flatRow b t) o := by
  rw [val_main_v23_apply, val_main_v21_apply, val_main_v19_apply, val_main_v17_apply, val_main_v15_apply, val_main_v14_apply,
    val_main_v11_apply, val_main_v13_apply, val_main_v9_apply, val_main_v4_apply, val_main_v3_apply, val_main_v10_apply,
    val_main_v8_apply, val_main_v6_apply, val_main_v7_apply, val_main_v12_apply, val_main_v16_apply, val_main_v18_apply,
    val_main_v20_apply, val_main_v22_apply, val_main_call0_v1_apply]
  have e1 : ∀ k : Fin 1024, idx_main_v3 (idx_main_v4 (idx_main_v9 (ix3 b t o))) k = ix3 b t k := fun k =>
    funext fun a => Fin.ext (by match a with | ⟨0, _⟩ => rfl | ⟨1, _⟩ => rfl | ⟨2, _⟩ => rfl)
  have e2 : ∀ k : Fin 1024, idx_main_v6 (idx_main_v8 (idx_main_v10 (ix3 b t o))) k = ix2 o k := fun k =>
    funext fun a => Fin.ext (by match a with | ⟨0, _⟩ => rfl | ⟨1, _⟩ => rfl)
  have e3 : ∀ k : Fin 1024, lidx_main_v7 (ix3 b t o) k = ix3 b t k := fun k =>
    funext fun a => Fin.ext (by match a with | ⟨0, _⟩ => rfl | ⟨1, _⟩ => rfl | ⟨2, _⟩ => rfl)
  have e4 : ∀ k : Fin 1024, ridx_main_v7 (ix3 b t o) k = ix2 o k := fun k =>
    funext fun a => Fin.ext (by match a with | ⟨0, _⟩ => rfl | ⟨1, _⟩ => rfl)
  have e5 : idx_main_v22 (ix3 b t o) = ix3 (0 : Fin 1) (0 : Fin 1) o :=
    funext fun a => Fin.ext (by match a with | ⟨0, _⟩ => rfl | ⟨1, _⟩ => rfl | ⟨2, _⟩ => rfl)
  simp only [e1, e2, e3, e4, e5, val_main_v2_apply, val_main_v0_apply, val_main_v5_apply, val_main_v1_apply,
    val_main_cst_apply, val_main_cst_0_apply, val_main_cst_1_apply, val_main_cst_2_apply, val_main_cst_3_apply,
    val_main_cst_4_apply, val_main_cst_5_apply, val_main_call0_v0_apply,
    Ideal.ofBits_def, Ideal.addf_def, Ideal.subf_def, Ideal.mulf_def, Ideal.maximumf_def, Ideal.hostDivf_def,
    Ideal.hostUnary_tanh_def, zero_word_add]
  simp only [proj, projK, gate, ProxyAttn.dist, xflat_row, mat, gain]

/-- The layer after its activation. -/
theorem layerQ_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (t : Fin 2048) (o : Fin 1024) :
    val_main_v24 (F := Ideal) x0 x1 x2 (ix3 b t o) = Ideal.tanh (proj (xflat x0) (mat x1) (gain x2) (flatRow b t) o) := by
  rw [val_main_v24_apply, layerQ_pre_apply, Ideal.hostUnary_tanh_def]

end Cert.ReferenceIdeal.RefValue

end
-- ==== Proof.RefLayerK.lean ====
/-
  The second proxy layer of the reference (the keys), read at (b, t, o): the clipped, rescaled and gated squared distance of the
  activated row b·2048 + t of the activations and the activated row o of the weights.
-/
import proofs.«109146_j78245714199328_1_alg».proof.Proof.Gen.ReferenceIdeal.Read
import proofs.«109146_j78245714199328_1_alg».proof.Proof.RefBase

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- The layer before its activation: entry (b, t, o) depends on row (b, t) of the activations, row o of the weights
    and the gain at o. -/
theorem layerK_pre_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (t : Fin 2048) (o : Fin 1024) :
    val_main_v50 (F := Ideal) x0 x1 x2 (ix3 b t o) = proj (xflat x0) (mat x1) (gain x2) (flatRow b t) o := by
  rw [val_main_v50_apply, val_main_v48_apply, val_main_v46_apply, val_main_v44_apply, val_main_v42_apply, val_main_v41_apply,
    val_main_v38_apply, val_main_v40_apply, val_main_v36_apply, val_main_v31_apply, val_main_v30_apply, val_main_v37_apply,
    val_main_v35_apply, val_main_v33_apply, val_main_v34_apply, val_main_v39_apply, val_main_v43_apply, val_main_v45_apply,
    val_main_v47_apply, val_main_v49_apply, val_main_call1_v1_apply]
  have e1 : ∀ k : Fin 1024, idx_main_v30 (idx_main_v31 (idx_main_v36 (ix3 b t o))) k = ix3 b t k := fun k =>
    funext fun a => Fin.ext (by match a with | ⟨0, _⟩ => rfl | ⟨1, _⟩ => rfl | ⟨2, _⟩ => rfl)
  have e2 : ∀ k : Fin 1024, idx_main_v33 (idx_main_v35 (idx_main_v37 (ix3 b t o))) k = ix2 o k := fun k =>
    funext fun a => Fin.ext (by match a with | ⟨0, _⟩ => rfl | ⟨1, _⟩ => rfl)
  have e3 : ∀ k : Fin 1024, lidx_main_v34 (ix3 b t o) k = ix3 b t k := fun k =>
    funext fun a => Fin.ext (by match a with | ⟨0, _⟩ => rfl | ⟨1, _⟩ => rfl | ⟨2, _⟩ => rfl)
  have e4 : ∀ k : Fin 1024, ridx_main_v34 (ix3 b t o) k = ix2 o k := fun k =>
    funext fun a => Fin.ext (by match a with | ⟨0, _⟩ => rfl | ⟨1, _⟩ => rfl)
  have e5 : idx_main_v49 (ix3 b t o) = ix3 (0 : Fin 1) (0 : Fin 1) o :=
    funext fun a => Fin.ext (by match a with | ⟨0, _⟩ => rfl | ⟨1, _⟩ => rfl | ⟨2, _⟩ => rfl)
  simp only [e1, e2, e3, e4, e5, val_main_v29_apply, val_main_v27_apply, val_main_v32_apply, val_main_v28_apply,
    val_main_cst_6_apply, val_main_cst_7_apply, val_main_cst_8_apply, val_main_cst_9_apply, val_main_cst_10_apply,
    val_main_cst_11_apply, val_main_cst_12_apply, val_main_call1_v0_apply,
    Ideal.ofBits_def, Ideal.addf_def, Ideal.subf_def, Ideal.mulf_def, Ideal.maximumf_def, Ideal.hostDivf_def,
    Ideal.hostUnary_tanh_def, zero_word_add]
  simp only [proj, projK, gate, ProxyAttn.dist, xflat_row, mat, gain]

/-- The layer after its activation. -/
theorem layerK_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (t : Fin 2048) (o : Fin 1024) :
    val_main_v51 (F := Ideal) x0 x1 x2 (ix3 b t o) = Ideal.tanh (proj (xflat x0) (mat x1) (gain x2) (flatRow b t) o) := by
  rw [val_main_v51_apply, layerK_pre_apply, Ideal.hostUnary_tanh_def]

end Cert.ReferenceIdeal.RefValue

end
-- ==== Proof.RefLayerV.lean ====
/-
  The third proxy layer of the reference (the values; it has no activation), read at (b, t, o): the clipped, rescaled and gated squared distance of the
  activated row b·2048 + t of the activations and the activated row o of the weights.
-/
import proofs.«109146_j78245714199328_1_alg».proof.Proof.Gen.ReferenceIdeal.Read
import proofs.«109146_j78245714199328_1_alg».proof.Proof.RefBase

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- The layer: entry (b, t, o) depends on row (b, t) of the activations, row o of the weights
    and the gain at o. -/
theorem layerV_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (t : Fin 2048) (o : Fin 1024) :
    val_main_v77 (F := Ideal) x0 x1 x2 (ix3 b t o) = proj (xflat x0) (mat x1) (gain x2) (flatRow b t) o := by
  rw [val_main_v77_apply, val_main_v75_apply, val_main_v73_apply, val_main_v71_apply, val_main_v69_apply, val_main_v68_apply,
    val_main_v65_apply, val_main_v67_apply, val_main_v63_apply, val_main_v58_apply, val_main_v57_apply, val_main_v64_apply,
    val_main_v62_apply, val_main_v60_apply, val_main_v61_apply, val_main_v66_apply, val_main_v70_apply, val_main_v72_apply,
    val_main_v74_apply, val_main_v76_apply, val_main_call2_v1_apply]
  have e1 : ∀ k : Fin 1024, idx_main_v57 (idx_main_v58 (idx_main_v63 (ix3 b t o))) k = ix3 b t k := fun k =>
    funext fun a => Fin.ext (by match a with | ⟨0, _⟩ => rfl | ⟨1, _⟩ => rfl | ⟨2, _⟩ => rfl)
  have e2 : ∀ k : Fin 1024, idx_main_v60 (idx_main_v62 (idx_main_v64 (ix3 b t o))) k = ix2 o k := fun k =>
    funext fun a => Fin.ext (by match a with | ⟨0, _⟩ => rfl | ⟨1, _⟩ => rfl)
  have e3 : ∀ k : Fin 1024, lidx_main_v61 (ix3 b t o) k = ix3 b t k := fun k =>
    funext fun a => Fin.ext (by match a with | ⟨0, _⟩ => rfl | ⟨1, _⟩ => rfl | ⟨2, _⟩ => rfl)
  have e4 : ∀ k : Fin 1024, ridx_main_v61 (ix3 b t o) k = ix2 o k := fun k =>
    funext fun a => Fin.ext (by match a with | ⟨0, _⟩ => rfl | ⟨1, _⟩ => rfl)
  have e5 : idx_main_v76 (ix3 b t o) = ix3 (0 : Fin 1) (0 : Fin 1) o :=
    funext fun a => Fin.ext (by match a with | ⟨0, _⟩ => rfl | ⟨1, _⟩ => rfl | ⟨2, _⟩ => rfl)
  simp only [e1, e2, e3, e4, e5, val_main_v56_apply, val_main_v54_apply, val_main_v59_apply, val_main_v55_apply,
    val_main_cst_13_apply, val_main_cst_14_apply, val_main_cst_15_apply, val_main_cst_16_apply, val_main_cst_17_apply,
    val_main_cst_18_apply, val_main_cst_19_apply, val_main_call2_v0_apply,
    Ideal.ofBits_def, Ideal.addf_def, Ideal.subf_def, Ideal.mulf_def, Ideal.maximumf_def, Ideal.hostDivf_def,
    Ideal.hostUnary_tanh_def, zero_word_add]
  simp only [proj, projK, gate, ProxyAttn.dist, xflat_row, mat, gain]

end Cert.ReferenceIdeal.RefValue

end
-- ==== Proof.RefHeads.lean ====
/-
  The three layers cut into heads: the reshape [2, 2048, 1024] → [2, 2048, 16, 64] followed by the transpose to
  [2, 16, 2048, 64] reads entry (b, h, t, d) at row b·2048 + t and column h·64 + d of the flat layer.
-/
import proofs.«109146_j78245714199328_1_alg».proof.Proof.RefLayerQ
import proofs.«109146_j78245714199328_1_alg».proof.Proof.RefLayerK
import proofs.«109146_j78245714199328_1_alg».proof.Proof.RefLayerV

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

theorem headsQ_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (h : Fin 16) (t : Fin 2048) (d : Fin 64) :
    val_main_v26 (F := Ideal) x0 x1 x2 (ix4 b h t d) = heads (fun r o => Ideal.tanh (proj (xflat x0) (mat x1) (gain x2) r o)) (headIx b h) t d := by
  rw [val_main_v26_apply, val_main_v25_apply]
  have e : idx_main_v25 (idx_main_v26 (ix4 b h t d)) = ix3 b t (flatCol h d) := funext fun a => Fin.ext (by
    have hb := b.isLt
    have hh := h.isLt
    have ht := t.isLt
    have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)
  rw [e, layerQ_apply]
  simp only [heads, headRow_headIx, headCol_headIx]

theorem headsK_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (h : Fin 16) (t : Fin 2048) (d : Fin 64) :
    val_main_v53 (F := Ideal) x0 x1 x2 (ix4 b h t d) = heads (fun r o => Ideal.tanh (proj (xflat x0) (mat x1) (gain x2) r o)) (headIx b h) t d := by
  rw [val_main_v53_apply, val_main_v52_apply]
  have e : idx_main_v52 (idx_main_v53 (ix4 b h t d)) = ix3 b t (flatCol h d) := funext fun a => Fin.ext (by
    have hb := b.isLt
    have hh := h.isLt
    have ht := t.isLt
    have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)
  rw [e, layerK_apply]
  simp only [heads, headRow_headIx, headCol_headIx]

theorem headsV_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (b : Fin 2) (h : Fin 16) (t : Fin 2048) (d : Fin 64) :
    val_main_v79 (F := Ideal) x0 x1 x2 (ix4 b h t d) = heads (proj (xflat x0) (mat x1) (gain x2)) (headIx b h) t d := by
  rw [val_main_v79_apply, val_main_v78_apply]
  have e : idx_main_v78 (idx_main_v79 (ix4 b h t d)) = ix3 b t (flatCol h d) := funext fun a => Fin.ext (by
    have hb := b.isLt
    have hh := h.isLt
    have ht := t.isLt
    have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)
  rw [e, layerV_apply]
  simp only [heads, headRow_headIx, headCol_headIx]

end Cert.ReferenceIdeal.RefValue

end
-- ==== Proof.RefLogit.lean ====
/-
  The logits of one head of the reference: entry (b, h, t, s) from the query rows and key rows of head (b, h), whatever
  those rows are — the clipped squared distance of query row t and key row s, negated and divided by eighty.
-/
import proofs.«109146_j78245714199328_1_alg».proof.Proof.RefBase

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- Entry (b, h, t, s) of the logits depends on query row t and key row s of head (b, h). -/
theorem logit_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (b : Fin 2) (h : Fin 16) (q k : Fin 2048 → Fin 64 → EReal)
    (hq : ∀ (t : Fin 2048) (e : Fin 64), val_main_v26 (F := Ideal) x0 x1 x2 (ix4 b h t e) = q t e)
    (hk : ∀ (s : Fin 2048) (e : Fin 64), val_main_v53 (F := Ideal) x0 x3 x4 (ix4 b h s e) = k s e)
    (t s : Fin 2048) :
    val_main_v96 (F := Ideal) x0 x1 x2 x3 x4 (ix4 b h t s) = logit q k t s := by
  rw [val_main_v96_apply, val_main_v94_apply, val_main_v93_apply, val_main_v92_apply, val_main_v89_apply, val_main_v91_apply,
    val_main_v87_apply, val_main_v82_apply, val_main_v81_apply, val_main_v88_apply, val_main_v85_apply, val_main_v84_apply,
    val_main_v86_apply, val_main_v90_apply, val_main_v95_apply, val_main_call3_v1_apply]
  have e1 : ∀ e : Fin 64, idx_main_v81 (idx_main_v82 (idx_main_v87 (ix4 b h t s))) e = ix4 b h t e := fun e =>
    funext fun a => Fin.ext (by match a with | ⟨0, _⟩ => rfl | ⟨1, _⟩ => rfl | ⟨2, _⟩ => rfl | ⟨3, _⟩ => rfl)
  have e2 : ∀ e : Fin 64, idx_main_v84 (idx_main_v85 (idx_main_v88 (ix4 b h t s))) e = ix4 b h s e := fun e =>
    funext fun a => Fin.ext (by match a with | ⟨0, _⟩ => rfl | ⟨1, _⟩ => rfl | ⟨2, _⟩ => rfl | ⟨3, _⟩ => rfl)
  have e3 : ∀ e : Fin 64, lidx_main_v86 (ix4 b h t s) e = ix4 b h t e := fun e =>
    funext fun a => Fin.ext (by match a with | ⟨0, _⟩ => rfl | ⟨1, _⟩ => rfl | ⟨2, _⟩ => rfl | ⟨3, _⟩ => rfl)
  have e4 : ∀ e : Fin 64, ridx_main_v86 (ix4 b h t s) e = ix4 b h s e := fun e =>
    funext fun a => Fin.ext (by match a with | ⟨0, _⟩ => rfl | ⟨1, _⟩ => rfl | ⟨2, _⟩ => rfl | ⟨3, _⟩ => rfl)
  simp only [e1, e2, e3, e4, val_main_v80_apply, val_main_v83_apply, hq, hk, val_main_cst_20_apply, val_main_cst_21_apply,
    val_main_cst_22_apply, val_main_cst_23_apply, val_main_cst_24_apply, val_main_call3_v0_apply,
    Ideal.ofBits_def, Ideal.addf_def, Ideal.subf_def, Ideal.mulf_def, Ideal.maximumf_def, Ideal.hostDivf_def,
    Ideal.hostNegf_def, Ideal.negf_def, zero_word_add]
  simp only [logit, ProxyAttn.dist]

end Cert.ReferenceIdeal.RefValue

end
-- ==== Proof.RefRowMax.lean ====
/-
  The row maximum of the reference's logits: the maximum over the key axis, folded from minus infinity and joined with
  minus infinity once more, read at (b, h, t) from the logits of row t of head (b, h), whatever those logits are.
-/
import proofs.«109146_j78245714199328_1_alg».proof.Proof.RefBase

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- The index (b, h, t) of the reduced array with coordinate s put back on the key axis is (b, h, t, s). -/
theorem lift_keyAxis (hred : Shape.Reduces S2x16x2048x2048 [3] S2x16x2048) (b : Fin 2) (h : Fin 16) (t : Fin 2048)
    (s : Fin (S2x16x2048x2048.size 3)) : hred.lift (ix3 b h t) s = ix4 b h t (⟨s.val, s.isLt⟩ : Fin 2048) := by
  funext c
  apply Fin.ext
  fin_cases c <;> rfl

/-- Entry (b, h, t) of the row maxima is the maximum of row t of the logits, folded from minus infinity and joined with it. -/
theorem rowMax_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (b : Fin 2) (h : Fin 16) (l : Fin 2048 → Fin 2048 → EReal)
    (hl : ∀ t s : Fin 2048, val_main_v96 (F := Ideal) x0 x1 x2 x3 x4 (ix4 b h t s) = l t s) (t : Fin 2048) :
    val_main_v99 (F := Ideal) x0 x1 x2 x3 x4 (ix3 b h t) = rowMax (l t) := by
  rw [val_main_v99_apply, val_main_v98_apply, val_main_cst_26_apply]
  unfold val_main_v97
  generalize val_main_v96 (F := Ideal) x0 x1 x2 x3 x4 = y at hl ⊢
  have hred : Shape.Reduces S2x16x2048x2048 [3] S2x16x2048 := by decide
  have key := Host.reduce_eq_fold_single (FloatOps.maximumf : Ideal .f32 → Ideal .f32 → Ideal .f32)
    (y : S2x16x2048x2048.Idx → Ideal .f32) (val_main_cst_25 (F := Ideal)) reducesTo_S2x16x2048x2048_S2x16x2048_d3 hred h_S_ (ix3 b h t)
  have hf : ((y : S2x16x2048x2048.Idx → Ideal .f32) ∘ hred.lift (ix3 b h t)) = fun s : Fin 2048 => l t s := funext fun s => by
    show y (hred.lift (ix3 b h t) s) = l t s
    rw [lift_keyAxis hred b h t s]
    exact hl t _
  rw [hf] at key
  refine (congrArg (FloatOps.maximumf (FloatOps.ofBits (F := Ideal) .f32 0xFF800000#32)) key).trans ?_
  rfl

end Cert.ReferenceIdeal.RefValue

end
-- ==== Proof.RefAttend.lean ====
/-
  One head of the reference's attention, read at (b, h, t, d) from the query, key and value rows of head (b, h), whatever
  those rows are: the shifted exponentials of row t of the logits, their quotient by the row's sum, and the weighted
  sum of the value rows.
-/
import proofs.«109146_j78245714199328_1_alg».proof.Proof.RefLogit
import proofs.«109146_j78245714199328_1_alg».proof.Proof.RefRowMax

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

section
variable (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (x5 : (⟨S1024x1024, .f32⟩ : BufTy).Contents (Elt Ideal))
    (x6 : (⟨S1x1x1024, .f32⟩ : BufTy).Contents (Elt Ideal)) (b : Fin 2) (h : Fin 16) (l : Fin 2048 → Fin 2048 → EReal)
  (hl : ∀ t s : Fin 2048, val_main_v96 (F := Ideal) x0 x1 x2 x3 x4 (ix4 b h t s) = l t s)
include hl

/-- Entry (b, h, t, s) of the shifted exponentials depends on row t of the logits. -/
theorem ex_apply (t s : Fin 2048) :
    val_main_v103 (F := Ideal) x0 x1 x2 x3 x4 (ix4 b h t s) = ex (l t) s := by
  rw [val_main_v103_apply, val_main_v102_apply, val_main_v101_apply, val_main_v100_apply]
  have e : idx_main_v100 (idx_main_v101 (ix4 b h t s)) = ix3 b h t := funext fun a => Fin.ext (by match a with | ⟨0, _⟩ => rfl | ⟨1, _⟩ => rfl | ⟨2, _⟩ => rfl)
  rw [e, hl, rowMax_apply x0 x1 x2 x3 x4 b h l hl, Ideal.hostUnary_exp_def, Ideal.subf_def]
  rfl

/-- Entry (b, h, t, s) of the softmax depends on row t of the logits. -/
theorem soft_apply (t s : Fin 2048) :
    val_main_v107 (F := Ideal) x0 x1 x2 x3 x4 (ix4 b h t s) = soft (l t) s := by
  rw [val_main_v107_apply, val_main_v106_apply, val_main_v105_apply, val_main_v104_apply]
  have e : ∀ s' : Fin 2048, idx_main_v104 (idx_main_v105 (idx_main_v106 (ix4 b h t s))) s' = ix4 b h t s' := fun s' =>
    funext fun a => Fin.ext (by match a with | ⟨0, _⟩ => rfl | ⟨1, _⟩ => rfl | ⟨2, _⟩ => rfl | ⟨3, _⟩ => rfl)
  simp only [e, ex_apply x0 x1 x2 x3 x4 b h l hl, val_main_cst_27_apply, Ideal.hostDivf_def, Ideal.ofBits_def, zero_word_add]
  rfl

end

/-- Entry (b, h, t, d) of the attention output depends on the query, key and value rows of head (b, h). -/
theorem attend_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (x5 : (⟨S1024x1024, .f32⟩ : BufTy).Contents (Elt Ideal))
    (x6 : (⟨S1x1x1024, .f32⟩ : BufTy).Contents (Elt Ideal)) (b : Fin 2) (h : Fin 16) (q k v : Fin 2048 → Fin 64 → EReal)
    (hq : ∀ (t : Fin 2048) (e : Fin 64), val_main_v26 (F := Ideal) x0 x1 x2 (ix4 b h t e) = q t e)
    (hk : ∀ (s : Fin 2048) (e : Fin 64), val_main_v53 (F := Ideal) x0 x3 x4 (ix4 b h s e) = k s e)
    (hv : ∀ (s : Fin 2048) (e : Fin 64), val_main_v79 (F := Ideal) x0 x5 x6 (ix4 b h s e) = v s e)
    (t : Fin 2048) (d : Fin 64) :
    val_main_v108 (F := Ideal) x0 x1 x2 x3 x4 x5 x6 (ix4 b h t d) = attend q k v t d := by
  rw [val_main_v108_apply]
  have e1 : ∀ s : Fin 2048, lidx_main_v108 (ix4 b h t d) s = ix4 b h t s := fun s =>
    funext fun a => Fin.ext (by match a with | ⟨0, _⟩ => rfl | ⟨1, _⟩ => rfl | ⟨2, _⟩ => rfl | ⟨3, _⟩ => rfl)
  have e2 : ∀ s : Fin 2048, ridx_main_v108 (ix4 b h t d) s = ix4 b h s d := fun s =>
    funext fun a => Fin.ext (by match a with | ⟨0, _⟩ => rfl | ⟨1, _⟩ => rfl | ⟨2, _⟩ => rfl | ⟨3, _⟩ => rfl)
  simp only [e1, e2, hv, soft_apply x0 x1 x2 x3 x4 b h (logit q k) (logit_apply x0 x1 x2 x3 x4 b h q k hq hk)]
  rfl

end Cert.ReferenceIdeal.RefValue

end
-- ==== Proof.RefSide.lean ====
/-
  The reference program is the specification: its heads laid side by side again (the transpose back and the reshape to
  [2, 2048, 1024]) are the specification's merged heads at row b·2048 + t, and its last product with the rows of the
  output weights is the specification's output projection.
-/
import proofs.«109146_j78245714199328_1_alg».proof.Proof.RefHeads
import proofs.«109146_j78245714199328_1_alg».proof.Proof.RefAttend

noncomputable section

open scoped BigOperators

namespace Cert.ReferenceIdeal.RefValue

open Cert.ReferenceIdeal Cert.ReferenceIdeal.Gen Cert.ReferenceIdeal.Read Idealize.ShloMosaic Idealize.ShloMosaic.ValueIdx Cert.ProxyAttn

/-- Entry (b, t, c) of the merged heads is entry (t, c mod 64) of head (b, c / 64). -/
theorem merged_apply (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (x5 : (⟨S1024x1024, .f32⟩ : BufTy).Contents (Elt Ideal))
    (x6 : (⟨S1x1x1024, .f32⟩ : BufTy).Contents (Elt Ideal)) (b : Fin 2) (t : Fin 2048) (c : Fin 1024) :
    val_main_v110 (F := Ideal) x0 x1 x2 x3 x4 x5 x6 (ix3 b t c)
      = unheads (attn (heads fun r o => Ideal.tanh (proj (xflat x0) (mat x1) (gain x2) r o))
          (heads fun r o => Ideal.tanh (proj (xflat x0) (mat x3) (gain x4) r o))
          (heads (proj (xflat x0) (mat x5) (gain x6)))) (flatRow b t) c := by
  have hb := b.isLt
  have ht := t.isLt
  have hc := c.isLt
  rw [val_main_v110_apply, val_main_v109_apply]
  have e : idx_main_v109 (idx_main_v110 (ix3 b t c))
      = ix4 b (⟨c.val / 64, by omega⟩ : Fin 16) t (⟨c.val % 64, by omega⟩ : Fin 64) := funext fun a => Fin.ext (by
    match a with
    | ⟨0, _⟩ => show ((b.val * 2048 + t.val) * 1024 + c.val) / 2097152 = b.val; omega
    | ⟨1, _⟩ => show ((b.val * 2048 + t.val) * 1024 + c.val) / 64 % 16 = c.val / 64; omega
    | ⟨2, _⟩ => show ((b.val * 2048 + t.val) * 1024 + c.val) / 1024 % 2048 = t.val; omega
    | ⟨3, _⟩ => show ((b.val * 2048 + t.val) * 1024 + c.val) % 64 = c.val % 64; omega)
  rw [e, attend_apply x0 x1 x2 x3 x4 x5 x6 b _ _ _ _ (headsQ_apply x0 x1 x2 b _) (headsK_apply x0 x3 x4 b _)
    (headsV_apply x0 x5 x6 b _)]
  unfold unheads attn
  have i0 : (⟨(flatRow b t).val / 2048 * 16 + c.val / 64, by show (b.val * 2048 + t.val) / 2048 * 16 + c.val / 64 < 32; omega⟩ : Fin 32)
      = headIx b (⟨c.val / 64, by omega⟩ : Fin 16) :=
    Fin.ext (by show (b.val * 2048 + t.val) / 2048 * 16 + c.val / 64 = b.val * 16 + c.val / 64; omega)
  have i1 : (⟨(flatRow b t).val % 2048, by omega⟩ : Fin 2048) = t :=
    Fin.ext (by show (b.val * 2048 + t.val) % 2048 = t.val; omega)
  rw [i0, i1]

/-- The reference's result is the specification's. -/
theorem ref_eq (x0 : (⟨S2x2048x1024, .f32⟩ : BufTy).Contents (Elt Ideal)) (x1 : (⟨S1024x1024, .f32⟩ : BufTy).Contents (Elt Ideal))
    (x2 : (⟨S1x1x1024, .f32⟩ : BufTy).Contents (Elt Ideal)) (x3 : (⟨S1024x1024, .f32⟩ : BufTy).Contents (Elt Ideal))
    (x4 : (⟨S1x1x1024, .f32⟩ : BufTy).Contents (Elt Ideal)) (x5 : (⟨S1024x1024, .f32⟩ : BufTy).Contents (Elt Ideal))
    (x6 : (⟨S1x1x1024, .f32⟩ : BufTy).Contents (Elt Ideal)) (x7 : (⟨S1024x1024, .f32⟩ : BufTy).Contents (Elt Ideal)) :
    Cert.ReferenceIdeal.Read.val_main_v111 (F := Ideal) x0 x1 x2 x3 x4 x5 x6 x7 = Cert.ProxyAttn.result x0 x1 x2 x3 x4 x5 x6 x7 := by
  funext i
  obtain ⟨b, t, o, rfl⟩ : ∃ (b : Fin 2) (t : Fin 2048) (o : Fin 1024), i = ix3 b t o := ⟨i 0, i 1, i 2, eq_ix3 i⟩
  rw [val_main_v111_apply]
  have e1 : ∀ c : Fin 1024, lidx_main_v111 (ix3 b t o) c = ix3 b t c := fun c =>
    funext fun a => Fin.ext (by match a with | ⟨0, _⟩ => rfl | ⟨1, _⟩ => rfl | ⟨2, _⟩ => rfl)
  have e2 : ∀ c : Fin 1024, ridx_main_v111 (ix3 b t o) c = ix2 o c := fun c =>
    funext fun a => Fin.ext (by match a with | ⟨0, _⟩ => rfl | ⟨1, _⟩ => rfl)
  simp only [e1, e2, merged_apply]
  rfl

end Cert.ReferenceIdeal.RefValue

end
-- ==== Proof.lean ====
/-
  The certificate of a transformer attention block whose three linear layers are "proxy" layers — the clipped, rescaled
  and gated squared distance of a tanh-activated row and a tanh-activated weight row — written as three kernels (the
  q/k/v layers on row tiles; softmax attention per head and query tile, with logits minus the clipped squared
  distance of query and key over 80; the output projection on row tiles) against a plain array program.

  On the extended reals the two programs are the same function of the eight arguments (Proof/Spec.lean): rounding to
  bf16 is the identity there, every sum is exact whatever its order or tiling, and both programs spell each formula the
  same way (the same literals 2, 1024, 1, 1/2, 80, the maximum folded from minus infinity, the quotient by the row sum),
  so no law beyond 0 + x = x and 0 - x = -x is needed and the finiteness of the inputs is never used.  The kernel
  program's side is its run with the result named (Proof/KernelRun.lean), its three kernels' arrays (Proof/QkvRegion.lean,
  Proof/AttnRegion.lean, Proof/OutProjRegion.lean), the re-layings between them (Proof/Heads.lean, Proof/Entry0.lean,
  Proof/Entry12.lean) and their composition (Proof/KernelValue.lean); the reference's side is its generated run read
  operation by operation (Proof/RefSide.lean).  The three frames are the generated ones, and the ideal pass rewrote nothing.
-/
import proofs.«109146_j78245714199328_1_alg».proof.Defs
import proofs.«109146_j78245714199328_1_alg».proof.Proof.Gen.Kernel
import proofs.«109146_j78245714199328_1_alg».proof.Proof.Gen.Kernel.Skeleton
import proofs.«109146_j78245714199328_1_alg».proof.Proof.Gen.Kernel.Launch
import proofs.«109146_j78245714199328_1_alg».proof.Proof.Gen.Kernel.Points
import proofs.«109146_j78245714199328_1_alg».proof.Proof.Gen.Kernel.Frame
import proofs.«109146_j78245714199328_1_alg».proof.Proof.Gen.KernelIdeal
import proofs.«109146_j78245714199328_1_alg».proof.Proof.Gen.KernelIdeal.Skeleton
import proofs.«109146_j78245714199328_1_alg».proof.Proof.Gen.KernelIdeal.Launch
import proofs.«109146_j78245714199328_1_alg».proof.Proof.Gen.KernelIdeal.Points
import proofs.«109146_j78245714199328_1_alg».proof.Proof.Gen.KernelIdeal.Frame
import proofs.«109146_j78245714199328_1_alg».proof.Proof.Gen.ReferenceIdeal
import proofs.«109146_j78245714199328_1_alg».proof.Proof.Gen.ReferenceIdeal.Run
import proofs.«109146_j78245714199328_1_alg».proof.Proof.Gen.ReferenceIdeal.Read
import proofs.«109146_j78245714199328_1_alg».proof.Proof.Gen.Pre_finite_inputs
import proofs.«109146_j78245714199328_1_alg».proof.Proof.KernelRun
import Idealize.ShloMosaic.Adequacy
import Idealize.ShloMosaic.Init
import proofs.«109146_j78245714199328_1_alg».proof.Proof.KernelValue
import proofs.«109146_j78245714199328_1_alg».proof.Proof.RefSide

set_option maxRecDepth 16384

noncomputable section

namespace Cert.Proof

open Idealize.ShloMosaic Idealize.SL.Sem

/-- The printed kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals both programs end with the specification's function of the eight arguments: the kernel
    program by its three kernels' arrays carried through the re-layings between them, the reference by its operations
    read index by index. -/
theorem algebraic : Cert.algebraic_KernelIdeal_ReferenceIdeal := by
  intro m ρ m' ρ' _ hagree
  refine ⟨fun c => Cert.ProxyAttn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.value m ρ c), (h c).2⟩) (Cert.KernelIdeal.Whole.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v111_eq, Cert.ReferenceIdeal.RefValue.ref_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
